-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x96x96 : Shape := ⟨4, ![32, 64, 96, 96]⟩
abbrev S8x64 : Shape := ⟨2, ![8, 64]⟩
abbrev S8 : Shape := ⟨1, ![8]⟩
abbrev S64x8 : Shape := ⟨2, ![64, 8]⟩
abbrev S64 : Shape := ⟨1, ![64]⟩
abbrev S_ : Shape := ⟨0, ![]⟩

class Facts : Prop where
  bcast_S_S32x64x96x96 : S_.BroadcastsInDim S32x64x96x96 (![] : Fin 0 → Fin S32x64x96x96.rank)
  reducesTo_S32x64x96x96_S_d0_1_2_3 : S32x64x96x96.ReducesTo [0, 1, 2, 3] S_
  h_S_ : 0 < S_.numel
  bcast_S_S8x64 : S_.BroadcastsInDim S8x64 (![] : Fin 0 → Fin S8x64.rank)
  reducesTo_S8x64_S_d0_1 : S8x64.ReducesTo [0, 1] S_
  bcast_S_S8 : S_.BroadcastsInDim S8 (![] : Fin 0 → Fin S8.rank)
  reducesTo_S8_S_d0 : S8.ReducesTo [0] S_
  bcast_S_S64x8 : S_.BroadcastsInDim S64x8 (![] : Fin 0 → Fin S64x8.rank)
  reducesTo_S64x8_S_d0_1 : S64x8.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S32x64x96x96 .f32) (main_arg1 : FVec F S8x64 .f32) (main_arg2 : FVec F S8 .f32) (main_arg3 : FVec F S64x8 .f32) (main_arg4 : FVec F S64 .f32) : IVec S_ 1 :=
  let main_v0 : FVec F S32x64x96x96 .f32 := Host.absf main_arg0
  let main_cst : FVec F S_ .f32 := constant S_ .f32 0x7F800000#32
  let main_v1 : FVec F S32x64x96x96 .f32 := broadcastInDim S32x64x96x96 ![] bcast_S_S32x64x96x96 main_cst
  let main_v2 : IVec S32x64x96x96 1 := cmpf .olt main_v0 main_v1
  let main_c : IVec S_ 1 := constantI S_ 1 1#1
  let main_v3 : IVec S_ 1 := (fun x v => Host.reduce IntOp.andi x v reducesTo_S32x64x96x96_S_d0_1_2_3 h_S_) main_v2 main_c
  let main_v4 : FVec F S8x64 .f32 := Host.absf main_arg1
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S64x8 .f32 := Host.absf main_arg3
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg4 main_v13 main_v16
-- ==== Kernel.lean ====
abbrev S32x64x96x96 : Shape := ⟨4, ![32, 64, 96, 96]⟩
abbrev S8x64 : Shape := ⟨2, ![8, 64]⟩
abbrev S8 : Shape := ⟨1, ![8]⟩
abbrev S64x8 : Shape := ⟨2, ![64, 8]⟩
abbrev S64 : Shape := ⟨1, ![64]⟩
abbrev S32x64x9216 : Shape := ⟨3, ![32, 64, 9216]⟩
abbrev S4x64x9216 : Shape := ⟨3, ![4, 64, 9216]⟩
abbrev S4x64 : Shape := ⟨2, ![4, 64]⟩
abbrev S4x64x1 : Shape := ⟨3, ![4, 64, 1]⟩
abbrev S4x64x64 : Shape := ⟨3, ![4, 64, 64]⟩
abbrev S64x64 : Shape := ⟨2, ![64, 64]⟩
abbrev S1x64x64 : Shape := ⟨3, ![1, 64, 64]⟩
abbrev S4 : Shape := ⟨1, ![4]⟩
abbrev S4x1x1 : Shape := ⟨3, ![4, 1, 1]⟩
abbrev S4x8 : Shape := ⟨2, ![4, 8]⟩
abbrev S1x8 : Shape := ⟨2, ![1, 8]⟩
abbrev S1x64 : Shape := ⟨2, ![1, 64]⟩

abbrev nBuf : Space → Nat
  | .hbm => 8
  | .vmem => 8
  | .smem => 0
  | _ => 0

abbrev bufTy : (tb : Table) → Fin (tcTables nBuf tb) → BufTy
  | .hbm, ⟨0, _⟩ => ⟨S32x64x96x96, .f32⟩
  | .hbm, ⟨1, _⟩ => ⟨S8x64, .f32⟩
  | .hbm, ⟨2, _⟩ => ⟨S8, .f32⟩
  | .hbm, ⟨3, _⟩ => ⟨S64x8, .f32⟩
  | .hbm, ⟨4, _⟩ => ⟨S64, .f32⟩
  | .hbm, ⟨5, _⟩ => ⟨S32x64x9216, .f32⟩
  | .hbm, ⟨6, _⟩ => ⟨S32x64x9216, .f32⟩
  | .hbm, ⟨7, _⟩ => ⟨S32x64x96x96, .f32⟩
  | .local _ .vmem, ⟨0, _⟩ => ⟨S4x64x9216, .f32⟩
  | .local _ .vmem, ⟨1, _⟩ => ⟨S4x64x9216, .f32⟩
  | .local _ .vmem, ⟨2, _⟩ => ⟨S8x64, .f32⟩
  | .local _ .vmem, ⟨3, _⟩ => ⟨S8, .f32⟩
  | .local _ .vmem, ⟨4, _⟩ => ⟨S64x8, .f32⟩
  | .local _ .vmem, ⟨5, _⟩ => ⟨S64, .f32⟩
  | .local _ .vmem, ⟨6, _⟩ => ⟨S4x64x9216, .f32⟩
  | .local _ .vmem, ⟨7, _⟩ => ⟨S4x64x9216, .f32⟩
  | _, _ => ⟨S32x64x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x9216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x64x9216 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x64x96x96_S32x64x9216 : S32x64x96x96.ShapeCasts S32x64x9216
  inb_S4x64x9216_S4x64x9216_0_0_0 : ∀ a, (![0, 0, 0] : Fin 3 → Nat) a + S4x64x9216.size a ≤ S4x64x9216.size a
  h_S4x64x9216 : 0 < S4x64x9216.numel
  shapeCasts_S4x64x9216_S4x64x9216 : S4x64x9216.ShapeCasts S4x64x9216
  reduces_S4x64x9216_S4x64 : S4x64x9216.Reduces [2] S4x64
  shapeCasts_S4x64_S4x64x1 : S4x64.ShapeCasts S4x64x1
  broadcasts_S4x64x1_S4x64x9216 : S4x64x1.Broadcasts S4x64x9216
  iota_S64x64_d0_w32 : S64x64.Iotas .tc 32 [0]
  iota_S64x64_d1_w32 : S64x64.Iotas .tc 32 [1]
  natLt_1_32 : 1 < 32
  shapeCasts_S64x64_S1x64x64 : S64x64.ShapeCasts S1x64x64
  broadcasts_S1x64x64_S4x64x64 : S1x64x64.Broadcasts S4x64x64
  reduces_S4x64x64_S4 : S4x64x64.Reduces [1, 2] S4
  shapeCasts_S4_S4x1x1 : S4.ShapeCasts S4x1x1
  broadcasts_S4x1x1_S4x64x64 : S4x1x1.Broadcasts S4x64x64
  reduces_S4x64x64_S4x64 : S4x64x64.Reduces [1] S4x64
  inb_S8x64_S8x64_0_0 : ∀ a, (![0, 0] : Fin 2 → Nat) a + S8x64.size a ≤ S8x64.size a
  h_S8x64 : 0 < S8x64.numel
  inb_S8_S8_0 : ∀ a, (![0] : Fin 1 → Nat) a + S8.size a ≤ S8.size a
  h_S8 : 0 < S8.numel
  inb_S64x8_S64x8_0_0 : ∀ a, (![0, 0] : Fin 2 → Nat) a + S64x8.size a ≤ S64x8.size a
  h_S64x8 : 0 < S64x8.numel
  inb_S64_S64_0 : ∀ a, (![0] : Fin 1 → Nat) a + S64.size a ≤ S64.size a
  h_S64 : 0 < S64.numel
  transposes_S8x64_p1_0_S64x8 : S8x64.Transposes [1, 0] S64x8
  shapeCasts_S8_S1x8 : S8.ShapeCasts S1x8
  broadcasts_S1x8_S4x8 : S1x8.Broadcasts S4x8
  transposes_S64x8_p1_0_S8x64 : S64x8.Transposes [1, 0] S8x64
  shapeCasts_S64_S1x64 : S64.ShapeCasts S1x64
  broadcasts_S1x64_S4x64 : S1x64.Broadcasts S4x64
  shapeCasts_S32x64x9216_S32x64x96x96 : S32x64x9216.ShapeCasts S32x64x96x96
  dot_S4x64x9216_S4x64x9216_S4x64x64_2_2_1_1_0_0_wf : DotDims.WF S4x64x9216 S4x64x9216 S4x64x64 [2] [2] [1] [1] [0] [0]
  dot_S4x64x64_S4x64x64_S4x64x64_2_1_1_2_0_0_wf : DotDims.WF S4x64x64 S4x64x64 S4x64x64 [2] [1] [1] [2] [0] [0]
  dot_S4x64_S64x8_S4x8_1_0_0_1_n_n_wf : DotDims.WF S4x64 S64x8 S4x8 [1] [0] [0] [1] [] []
  dot_S4x8_S8x64_S4x64_1_0_0_1_n_n_wf : DotDims.WF S4x8 S8x64 S4x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x9216.size a ≤ S32x64x9216.size a
  hwx0_0 : ∀ i : grid0.Coords, EltTy.bits .f32 = 32 ∨ (Rect.block (s := S32x64x9216) S4x64x9216.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x8.size a ≤ S64x8.size a
  hwx0_3 : ∀ i : grid0.Coords, EltTy.bits .f32 = 32 ∨ (Rect.block (s := S64x8) S64x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x64x9216.size a ≤ S32x64x9216.size a
  hwx0_5 : ∀ i : grid0.Coords, EltTy.bits .f32 = 32 ∨ (Rect.block (s := S32x64x9216) S4x64x9216.size (cc0_transform_5 i) (hinb0_5 i)).WholeWords (EltTy.packing .f32)

variable [Facts₀]

def dot_S4x64x9216_S4x64x9216_S4x64x64_2_2_1_1_0_0 : DotDims S4x64x9216 S4x64x9216 S4x64x64 where
  lhsContracting := [2]
  rhsContracting := [2]
  lhsNonContracting := [1]
  rhsNonContracting := [1]
  lhsBatch := [0]
  rhsBatch := [0]
  wf := dot_S4x64x9216_S4x64x9216_S4x64x64_2_2_1_1_0_0_wf
def dot_S4x64x64_S4x64x64_S4x64x64_2_1_1_2_0_0 : DotDims S4x64x64 S4x64x64 S4x64x64 where
  lhsContracting := [2]
  rhsContracting := [1]
  lhsNonContracting := [1]
  rhsNonContracting := [2]
  lhsBatch := [0]
  rhsBatch := [0]
  wf := dot_S4x64x64_S4x64x64_S4x64x64_2_1_1_2_0_0_wf
def dot_S4x64_S64x8_S4x8_1_0_0_1_n_n : DotDims S4x64 S64x8 S4x8 where
  lhsContracting := [1]
  rhsContracting := [0]
  lhsNonContracting := [0]
  rhsNonContracting := [1]
  lhsBatch := []
  rhsBatch := []
  wf := dot_S4x64_S64x8_S4x8_1_0_0_1_n_n_wf
def dot_S4x8_S8x64_S4x64_1_0_0_1_n_n : DotDims S4x8 S8x64 S4x64 where
  lhsContracting := [1]
  rhsContracting := [0]
  lhsNonContracting := [0]
  rhsNonContracting := [1]
  lhsBatch := []
  rhsBatch := []
  wf := dot_S4x8_S8x64_S4x64_1_0_0_1_n_n_wf

abbrev win0_0 : Pipeline.Window sig grid0 :=
  Pipeline.Window.ofSpec (Memref.whole main_v0) S4x64x9216.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S4x64x9216.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x64x96x96 : Shape := ⟨4, ![32, 64, 96, 96]⟩
abbrev S8x64 : Shape := ⟨2, ![8, 64]⟩
abbrev S8 : Shape := ⟨1, ![8]⟩
abbrev S64x8 : Shape := ⟨2, ![64, 8]⟩
abbrev S64 : Shape := ⟨1, ![64]⟩
abbrev S32x64x9216 : Shape := ⟨3, ![32, 64, 9216]⟩
abbrev S_ : Shape := ⟨0, ![]⟩
abbrev S32x64 : Shape := ⟨2, ![32, 64]⟩
abbrev S32x64x1 : Shape := ⟨3, ![32, 64, 1]⟩
abbrev S32x64x64 : Shape := ⟨3, ![32, 64, 64]⟩
abbrev S64x64 : Shape := ⟨2, ![64, 64]⟩
abbrev S32 : Shape := ⟨1, ![32]⟩
abbrev S32x1x1 : Shape := ⟨3, ![32, 1, 1]⟩
abbrev S1x64x64 : Shape := ⟨3, ![1, 64, 64]⟩
abbrev S32x8 : Shape := ⟨2, ![32, 8]⟩
abbrev S1x8 : Shape := ⟨2, ![1, 8]⟩
abbrev S1x64 : Shape := ⟨2, ![1, 64]⟩
abbrev S32x64x1x1 : Shape := ⟨4, ![32, 64, 1, 1]⟩

abbrev nBuf : Space → Nat
  | .hbm => 118
  | .vmem => 0
  | .smem => 0
  | _ => 0

abbrev bufTy : (tb : Table) → Fin (tcTables nBuf tb) → BufTy
  | .hbm, ⟨0, _⟩ => ⟨S32x64x96x96, .f32⟩
  | .hbm, ⟨1, _⟩ => ⟨S8x64, .f32⟩
  | .hbm, ⟨2, _⟩ => ⟨S8, .f32⟩
  | .hbm, ⟨3, _⟩ => ⟨S64x8, .f32⟩
  | .hbm, ⟨4, _⟩ => ⟨S64, .f32⟩
  | .hbm, ⟨5, _⟩ => ⟨S32x64x9216, .f32⟩
  | .hbm, ⟨6, _⟩ => ⟨S_, .f32⟩
  | .hbm, ⟨7, _⟩ => ⟨S32x64, .f32⟩
  | .hbm, ⟨8, _⟩ => ⟨S32x64x1, .f32⟩
  | .hbm, ⟨9, _⟩ => ⟨S_, .f32⟩
  | .hbm, ⟨10, _⟩ => ⟨S32x64x1, .f32⟩
  | .hbm, ⟨11, _⟩ => ⟨S32x64x1, .f32⟩
  | .hbm, ⟨12, _⟩ => ⟨S32x64x9216, .f32⟩
  | .hbm, ⟨13, _⟩ => ⟨S32x64x9216, .f32⟩
  | .hbm, ⟨14, _⟩ => ⟨S32x64x64, .f32⟩
  | .hbm, ⟨15, _⟩ => ⟨S_, .f32⟩
  | .hbm, ⟨16, _⟩ => ⟨S32x64x64, .f32⟩
  | .hbm, ⟨17, _⟩ => ⟨S32x64x64, .f32⟩
  | .hbm, ⟨18, _⟩ => ⟨S64x64, .i32⟩
  | .hbm, ⟨19, _⟩ => ⟨S64x64, .i32⟩
  | .hbm, ⟨20, _⟩ => ⟨S_, .i32⟩
  | .hbm, ⟨21, _⟩ => ⟨S64x64, .i32⟩
  | .hbm, ⟨22, _⟩ => ⟨S64x64, .i32⟩
  | .hbm, ⟨23, _⟩ => ⟨S64x64, .i1⟩
  | .hbm, ⟨24, _⟩ => ⟨S64x64, .f32⟩
  | .hbm, ⟨25, _⟩ => ⟨S_, .f32⟩
  | .hbm, ⟨26, _⟩ => ⟨S64x64, .f32⟩
  | .hbm, ⟨27, _⟩ => ⟨S64x64, .f32⟩
  | .hbm, ⟨28, _⟩ => ⟨S64x64, .i32⟩
  | .hbm, ⟨29, _⟩ => ⟨S64x64, .i32⟩
  | .hbm, ⟨30, _⟩ => ⟨S_, .i32⟩
  | .hbm, ⟨31, _⟩ => ⟨S64x64, .i32⟩
  | .hbm, ⟨32, _⟩ => ⟨S64x64, .i32⟩
  | .hbm, ⟨33, _⟩ => ⟨S64x64, .i1⟩
  | .hbm, ⟨34, _⟩ => ⟨S_, .f32⟩
  | .hbm, ⟨35, _⟩ => ⟨S32x64x64, .f32⟩
  | .hbm, ⟨36, _⟩ => ⟨S32x64x64, .i1⟩
  | .hbm, ⟨37, _⟩ => ⟨S32x64x64, .f32⟩
  | .hbm, ⟨38, _⟩ => ⟨S_, .f32⟩
  | .hbm, ⟨39, _⟩ => ⟨S32, .f32⟩
  | .hbm, ⟨40, _⟩ => ⟨S32x1x1, .f32⟩
  | .hbm, ⟨41, _⟩ => ⟨S32x64x64, .f32⟩
  | .hbm, ⟨42, _⟩ => ⟨S32x64x64, .f32⟩
  | .hbm, ⟨43, _⟩ => ⟨S1x64x64, .f32⟩
  | .hbm, ⟨44, _⟩ => ⟨S32x64x64, .f32⟩
  | .hbm, ⟨45, _⟩ => ⟨S32x64x64, .f32⟩
  | .hbm, ⟨46, _⟩ => ⟨S_, .f32⟩
  | .hbm, ⟨47, _⟩ => ⟨S32x64x64, .f32⟩
  | .hbm, ⟨48, _⟩ => ⟨S32x64x64, .f32⟩
  | .hbm, ⟨49, _⟩ => ⟨S32x64x64, .f32⟩
  | .hbm, ⟨50, _⟩ => ⟨S1x64x64, .f32⟩
  | .hbm, ⟨51, _⟩ => ⟨S32x64x64, .f32⟩
  | .hbm, ⟨52, _⟩ => ⟨S32x64x64, .f32⟩
  | .hbm, ⟨53, _⟩ => ⟨S_, .f32⟩
  | .hbm, ⟨54, _⟩ => ⟨S32x64x64, .f32⟩
  | .hbm, ⟨55, _⟩ => ⟨S32x64x64, .f32⟩
  | .hbm, ⟨56, _⟩ => ⟨S32x64x64, .f32⟩
  | .hbm, ⟨57, _⟩ => ⟨S32x64x64, .f32⟩
  | .hbm, ⟨58, _⟩ => ⟨S32x64x64, .f32⟩
  | .hbm, ⟨59, _⟩ => ⟨S1x64x64, .f32⟩
  | .hbm, ⟨60, _⟩ => ⟨S32x64x64, .f32⟩
  | .hbm, ⟨61, _⟩ => ⟨S32x64x64, .f32⟩
  | .hbm, ⟨62, _⟩ => ⟨S_, .f32⟩
  | .hbm, ⟨63, _⟩ => ⟨S32x64x64, .f32⟩
  | .hbm, ⟨64, _⟩ => ⟨S32x64x64, .f32⟩
  | .hbm, ⟨65, _⟩ => ⟨S32x64x64, .f32⟩
  | .hbm, ⟨66, _⟩ => ⟨S32x64x64, .f32⟩
  | .hbm, ⟨67, _⟩ => ⟨S32x64x64, .f32⟩
  | .hbm, ⟨68, _⟩ => ⟨S1x64x64, .f32⟩
  | .hbm, ⟨69, _⟩ => ⟨S32x64x64, .f32⟩
  | .hbm, ⟨70, _⟩ => ⟨S32x64x64, .f32⟩
  | .hbm, ⟨71, _⟩ => ⟨S_, .f32⟩
  | .hbm, ⟨72, _⟩ => ⟨S32x64x64, .f32⟩
  | .hbm, ⟨73, _⟩ => ⟨S32x64x64, .f32⟩
  | .hbm, ⟨74, _⟩ => ⟨S32x64x64, .f32⟩
  | .hbm, ⟨75, _⟩ => ⟨S32x64x64, .f32⟩
  | .hbm, ⟨76, _⟩ => ⟨S32x64x64, .f32⟩
  | .hbm, ⟨77, _⟩ => ⟨S32x64x64, .f32⟩
  | .hbm, ⟨78, _⟩ => ⟨S1x64x64, .f32⟩
  | .hbm, ⟨79, _⟩ => ⟨S32x64x64, .f32⟩
  | .hbm, ⟨80, _⟩ => ⟨S32x64x64, .f32⟩
  | .hbm, ⟨81, _⟩ => ⟨S32x64x64, .f32⟩
  | .hbm, ⟨82, _⟩ => ⟨S_, .f32⟩
  | .hbm, ⟨83, _⟩ => ⟨S32x64x64, .f32⟩
  | .hbm, ⟨84, _⟩ => ⟨S32x64x64, .f32⟩
  | .hbm, ⟨85, _⟩ => ⟨S32, .f32⟩
  | .hbm, ⟨86, _⟩ => ⟨S32x1x1, .f32⟩
  | .hbm, ⟨87, _⟩ => ⟨S32x64x64, .f32⟩
  | .hbm, ⟨88, _⟩ => ⟨S32x64x64, .f32⟩
  | .hbm, ⟨89, _⟩ => ⟨S_, .f32⟩
  | .hbm, ⟨90, _⟩ => ⟨S32x64, .f32⟩
  | .hbm, ⟨91, _⟩ => ⟨S_, .f32⟩
  | .hbm, ⟨92, _⟩ => ⟨S32x64, .f32⟩
  | .hbm, ⟨93, _⟩ => ⟨S32x64, .f32⟩
  | .hbm, ⟨94, _⟩ => ⟨S64x8, .f32⟩
  | .hbm, ⟨95, _⟩ => ⟨S32x8, .f32⟩
  | .hbm, ⟨96, _⟩ => ⟨S1x8, .f32⟩
  | .hbm, ⟨97, _⟩ => ⟨S32x8, .f32⟩
  | .hbm, ⟨98, _⟩ => ⟨S32x8, .f32⟩
  | .hbm, ⟨99, _⟩ => ⟨S_, .f32⟩
  | .hbm, ⟨100, _⟩ => ⟨S32x8, .f32⟩
  | .hbm, ⟨101, _⟩ => ⟨S32x8, .f32⟩
  | .hbm, ⟨102, _⟩ => ⟨S8x64, .f32⟩
  | .hbm, ⟨103, _⟩ => ⟨S32x64, .f32⟩
  | .hbm, ⟨104, _⟩ => ⟨S1x64, .f32⟩
  | .hbm, ⟨105, _⟩ => ⟨S32x64, .f32⟩
  | .hbm, ⟨106, _⟩ => ⟨S32x64, .f32⟩
  | .hbm, ⟨107, _⟩ => ⟨S32x64, .f32⟩
  | .hbm, ⟨108, _⟩ => ⟨S32x64, .f32⟩
  | .hbm, ⟨109, _⟩ => ⟨S_, .f32⟩
  | .hbm, ⟨110, _⟩ => ⟨S32x64, .f32⟩
  | .hbm, ⟨111, _⟩ => ⟨S32x64, .f32⟩
  | .hbm, ⟨112, _⟩ => ⟨S_, .f32⟩
  | .hbm, ⟨113, _⟩ => ⟨S32x64, .f32⟩
  | .hbm, ⟨114, _⟩ => ⟨S32x64, .f32⟩
  | .hbm, ⟨115, _⟩ => ⟨S32x64x1x1, .f32⟩
  | .hbm, ⟨116, _⟩ => ⟨S32x64x96x96, .f32⟩
  | .hbm, ⟨117, _⟩ => ⟨S32x64x96x96, .f32⟩
  | _, _ => ⟨S32x64x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_c : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_cst : Ref sig .tc := ⟨.hbm, 34, rfl⟩
abbrev main_call0_v5 : Ref sig .tc := ⟨.hbm, 35, rfl⟩
abbrev main_call0_call0_v0 : Ref sig .tc := ⟨.hbm, 36, rfl⟩
abbrev main_call0_v6 : Ref sig .tc := ⟨.hbm, 37, rfl⟩
abbrev main_call0_cst_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_7 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_8 : Ref sig .tc := ⟨.hbm, 89, rfl⟩
abbrev main_v63 : Ref sig .tc := ⟨.hbm, 90, rfl⟩
abbrev main_cst_9 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_call1_cst : Ref sig .tc := ⟨.hbm, 99, rfl⟩
abbrev main_call1_v0 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_10 : Ref sig .tc := ⟨.hbm, 109, rfl⟩
abbrev main_v79 : Ref sig .tc := ⟨.hbm, 110, rfl⟩
abbrev main_v80 : Ref sig .tc := ⟨.hbm, 111, rfl⟩
abbrev main_cst_11 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩

abbrev nD : Nat := 1
abbrev τ : Topo := Topo.v7x

variable {F : FTy → Type} [FloatOps F]

class Facts₀ : Prop where
  shapeCasts_S32x64x96x96_S32x64x9216 : S32x64x96x96.ShapeCasts S32x64x9216
  reducesTo_S32x64x9216_S32x64_d2 : S32x64x9216.ReducesTo [2] S32x64
  h_S_ : 0 < S_.numel
  bcast_S32x64_S32x64x1_0_1 : S32x64.BroadcastsInDim S32x64x1 (![0, 1] : Fin 2 → Fin S32x64x1.rank)
  bcast_S_S32x64x1 : S_.BroadcastsInDim S32x64x1 (![] : Fin 0 → Fin S32x64x1.rank)
  bcast_S32x64x1_S32x64x9216_0_1_2 : S32x64x1.BroadcastsInDim S32x64x9216 (![0, 1, 2] : Fin 3 → Fin S32x64x9216.rank)
  bcast_S_S32x64x64 : S_.BroadcastsInDim S32x64x64 (![] : Fin 0 → Fin S32x64x64.rank)
  bcast_S_S64x64 : S_.BroadcastsInDim S64x64 (![] : Fin 0 → Fin S64x64.rank)
  bcast_S64x64_S32x64x64_1_2 : S64x64.BroadcastsInDim S32x64x64 (![1, 2] : Fin 2 → Fin S32x64x64.rank)
  reducesTo_S32x64x64_S32_d1_2 : S32x64x64.ReducesTo [1, 2] S32
  bcast_S32_S32x1x1_0 : S32.BroadcastsInDim S32x1x1 (![0] : Fin 1 → Fin S32x1x1.rank)
  bcast_S32x1x1_S32x64x64_0_1_2 : S32x1x1.BroadcastsInDim S32x64x64 (![0, 1, 2] : Fin 3 → Fin S32x64x64.rank)
  bcast_S64x64_S1x64x64_1_2 : S64x64.BroadcastsInDim S1x64x64 (![1, 2] : Fin 2 → Fin S1x64x64.rank)
  bcast_S1x64x64_S32x64x64_0_1_2 : S1x64x64.BroadcastsInDim S32x64x64 (![0, 1, 2] : Fin 3 → Fin S32x64x64.rank)
  reducesTo_S32x64x64_S32x64_d1 : S32x64x64.ReducesTo [1] S32x64
  bcast_S_S32x64 : S_.BroadcastsInDim S32x64 (![] : Fin 0 → Fin S32x64.rank)
  transposes_S8x64_S64x8_1_0 : S8x64.Transposes [1, 0] S64x8
  bcast_S8_S1x8_1 : S8.BroadcastsInDim S1x8 (![1] : Fin 1 → Fin S1x8.rank)
  bcast_S1x8_S32x8_0_1 : S1x8.BroadcastsInDim S32x8 (![0, 1] : Fin 2 → Fin S32x8.rank)
  bcast_S_S32x8 : S_.BroadcastsInDim S32x8 (![] : Fin 0 → Fin S32x8.rank)
  transposes_S64x8_S8x64_1_0 : S64x8.Transposes [1, 0] S8x64
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S32x64_S32x64x1x1_0_1 : S32x64.BroadcastsInDim S32x64x1x1 (![0, 1] : Fin 2 → Fin S32x64x1x1.rank)
  bcast_S32x64x1x1_S32x64x96x96_0_1_2_3 : S32x64x1x1.BroadcastsInDim S32x64x96x96 (![0, 1, 2, 3] : Fin 4 → Fin S32x64x96x96.rank)
  dot_S32x64x9216_S32x64x9216_S32x64x64_2_2_1_1_0_0_wf : DotDims.WF S32x64x9216 S32x64x9216 S32x64x64 [2] [2] [1] [1] [0] [0]
  dot_S32x64x64_S32x64x64_S32x64x64_2_1_1_2_0_0_wf : DotDims.WF S32x64x64 S32x64x64 S32x64x64 [2] [1] [1] [2] [0] [0]
  dot_S32x64_S64x8_S32x8_1_0_0_1_n_n_wf : DotDims.WF S32x64 S64x8 S32x8 [1] [0] [0] [1] [] []
  dot_S32x8_S8x64_S32x64_1_0_0_1_n_n_wf : DotDims.WF S32x8 S8x64 S32x64 [1] [0] [0] [1] [] []

variable [Facts₀]

def dot_S32x64x9216_S32x64x9216_S32x64x64_2_2_1_1_0_0 : DotDims S32x64x9216 S32x64x9216 S32x64x64 where
  lhsContracting := [2]
  rhsContracting := [2]
  lhsNonContracting := [1]
  rhsNonContracting := [1]
  lhsBatch := [0]
  rhsBatch := [0]
  wf := dot_S32x64x9216_S32x64x9216_S32x64x64_2_2_1_1_0_0_wf
def dot_S32x64x64_S32x64x64_S32x64x64_2_1_1_2_0_0 : DotDims S32x64x64 S32x64x64 S32x64x64 where
  lhsContracting := [2]
  rhsContracting := [1]
  lhsNonContracting := [1]
  rhsNonContracting := [2]
  lhsBatch := [0]
  rhsBatch := [0]
  wf := dot_S32x64x64_S32x64x64_S32x64x64_2_1_1_2_0_0_wf
def dot_S32x64_S64x8_S32x8_1_0_0_1_n_n : DotDims S32x64 S64x8 S32x8 where
  lhsContracting := [1]
  rhsContracting := [0]
  lhsNonContracting := [0]
  rhsNonContracting := [1]
  lhsBatch := []
  rhsBatch := []
  wf := dot_S32x64_S64x8_S32x8_1_0_0_1_n_n_wf
def dot_S32x8_S8x64_S32x64_1_0_0_1_n_n : DotDims S32x8 S8x64 S32x64 where
  lhsContracting := [1]
  rhsContracting := [0]
  lhsNonContracting := [0]
  rhsNonContracting := [1]
  lhsBatch := []
  rhsBatch := []
  wf := dot_S32x8_S8x64_S32x64_1_0_0_1_n_n_wf

class Facts : Prop extends Facts₀ where

variable [Facts]
-- ==== Proof.KernelArray.lean ====
/- The KERNEL program's result as ONE array function of its arguments.

   The program flattens its first argument `[32, 64, 96, 96]` to `[32, 64, 9216]`, runs one pipelined region over a grid of
   eight points, and splits the region's output `[32, 64, 9216]` back to `[32, 64, 96, 96]`. Point `t` stages rows
   `4 t … 4 t + 3` of the flattened input and the four small arguments whole, and writes rows `4 t … 4 t + 3` of the output.

   So for ANY whole-array function `G` whose rows `4 t … 4 t + 3` are what the body computes from rows `4 t … 4 t + 3` of
   its first operand (`hG`), the run ends with the result the reshape of `G` of the reshaped first argument and the four
   small arguments, and with the arguments as launched (`run`). The steps: what the region finds in its arrays (`V_v0`
   and the generated `V_main_argK`), each input block read at an index (`idx_facts`, `iblk0_apply`, `iblkK_eq`), what a
   point writes back (`block_of_rows`, `flushed_eq`), the blocks cover the array (`mem_blk`, `cover`, `final`), the
   operation after the region (`tail_v2`), and the run over the generated frame run. -/
import proofs.«179594_j15358803050800_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.Arr

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- Row `4 t + b` of the 32 rows: row `b` of the block of four rows that grid point `t` works on. -/
abbrev row (t : Fin 8) (b : Fin 4) : Fin 32 := ⟨4 * t.val + b.val, by omega⟩

/-- A grid point as a number below 8. -/
abbrev pt (t : Fin cfg0.N) : Fin 8 := ⟨t.val, lt_of_lt_of_eq t.isLt N_0⟩

/-- The block index maps, decided over the eight grid points: the two big windows step along the rows with the
    point and stay at block 0 on the other axes; the four small windows stay at block 0. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

/-- The first window's block at point `t` is rows `4 t … 4 t + 3` of the flattened input. -/
theorem iblk0_apply (c : Dev nD) (t : Fin cfg0.N) (j : S4x64x9216.Idx) (i : S32x64x9216.Idx)
    (h0 : (i 0).val = 4 * t.val + (j 0).val) (h1 : (i 1).val = (j 1).val) (h2 : (i 2).val = (j 2).val) :
    (iblk m c 0 t : Vec Ideal S4x64x9216 .f32) j = (V m c main_v0 : S32x64x9216.Idx → Elt Ideal .f32) i := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 4 + 1 * (j 0).val = (i 0).val; rw [e0, h0]; omega
  | ⟨1, _⟩ => show win0_0.index t (1 : Fin 3) * 64 + 1 * (j 1).val = (i 1).val; rw [e1, h1]; omega
  | ⟨2, _⟩ => show win0_0.index t (2 : Fin 3) * 9216 + 1 * (j 2).val = (i 2).val; rw [e2, h2]; omega

/-- The four small windows stage their whole arrays: the block at any point is the array. -/
theorem iblk1_eq (c : Dev nD) (t : Fin cfg0.N) :
    (iblk m c 1 t : Vec Ideal S8x64 .f32) = (V m c main_arg1 : S8x64.Idx → Elt Ideal .f32) := by
  obtain ⟨-, -, -, -, -, -, e0, e1, -⟩ := idx_facts t
  funext j
  unfold iblk
  rw [View.read_apply]
  show V m c main_arg1 _ = V m c main_arg1 _
  congr 1
  funext a
  apply Fin.ext
  match a with
  | ⟨0, _⟩ => show win0_1.index t (0 : Fin 2) * 8 + 1 * (j 0).val = (j 0).val; rw [e0]; omega
  | ⟨1, _⟩ => show win0_1.index t (1 : Fin 2) * 64 + 1 * (j 1).val = (j 1).val; rw [e1]; omega
theorem iblk2_eq (c : Dev nD) (t : Fin cfg0.N) :
    (iblk m c 2 t : Vec Ideal S8 .f32) = (V m c main_arg2 : S8.Idx → Elt Ideal .f32) := by
  obtain ⟨-, -, -, -, -, -, -, -, e0, -⟩ := idx_facts t
  funext j
  unfold iblk
  rw [View.read_apply]
  show V m c main_arg2 _ = V m c main_arg2 _
  congr 1
  funext a
  apply Fin.ext
  match a with
  | ⟨0, _⟩ => show win0_2.index t (0 : Fin 1) * 8 + 1 * (j 0).val = (j 0).val; rw [e0]; omega
theorem iblk3_eq (c : Dev nD) (t : Fin cfg0.N) :
    (iblk m c 3 t : Vec Ideal S64x8 .f32) = (V m c main_arg3 : S64x8.Idx → Elt Ideal .f32) := by
  obtain ⟨-, -, -, -, -, -, -, -, -, e0, e1, -⟩ := idx_facts t
  funext j
  unfold iblk
  rw [View.read_apply]
  show V m c main_arg3 _ = V m c main_arg3 _
  congr 1
  funext a
  apply Fin.ext
  match a with
  | ⟨0, _⟩ => show win0_3.index t (0 : Fin 2) * 64 + 1 * (j 0).val = (j 0).val; rw [e0]; omega
  | ⟨1, _⟩ => show win0_3.index t (1 : Fin 2) * 8 + 1 * (j 1).val = (j 1).val; rw [e1]; omega
theorem iblk4_eq (c : Dev nD) (t : Fin cfg0.N) :
    (iblk m c 4 t : Vec Ideal S64 .f32) = (V m c main_arg4 : S64.Idx → Elt Ideal .f32) := by
  obtain ⟨-, -, -, -, -, -, -, -, -, -, -, e0⟩ := idx_facts t
  funext j
  unfold iblk
  rw [View.read_apply]
  show V m c main_arg4 _ = V m c main_arg4 _
  congr 1
  funext a
  apply Fin.ext
  match a with
  | ⟨0, _⟩ => show win0_4.index t (0 : Fin 1) * 64 + 1 * (j 0).val = (j 0).val; rw [e0]; omega

/-- The flattened input, as the region finds it: the first argument with its two trailing axes merged. -/
theorem V_v0 (c : Dev nD) :
    (V m c main_v0 : S32x64x9216.Idx → Elt Ideal .f32)
      = shapeCast S32x64x9216 (m ((c.tc : Thread nD τ).loc main_arg0)) shapeCasts_S32x64x96x96_S32x64x9216 := by
  show StableHlo.after hostOps0 (fun b => m (c, b)) (Proc.devRef .tc main_v0) = _
  after_results
  rfl

/-- The hypothesis on `G`, read at an index of the block and an index of the array with the same coordinates but for
    the rows' offset `4 t`. -/
theorem block_of_rows
    (G : Vec Ideal S32x64x9216 .f32 → Vec Ideal S8x64 .f32 → Vec Ideal S8 .f32 → Vec Ideal S64x8 .f32 → Vec Ideal S64 .f32 → Vec Ideal S32x64x9216 .f32)
    (hG : ∀ (xr : Vec Ideal S32x64x9216 .f32) (a1 : Vec Ideal S8x64 .f32) (a2 : Vec Ideal S8 .f32) (a3 : Vec Ideal S64x8 .f32) (a4 : Vec Ideal S64 .f32)
            (t : Fin 8) (x0 : Vec Ideal S4x64x9216 .f32),
            (∀ (b : Fin 4) (ch : Fin 64) (q : Fin 9216), x0 (ix3 b ch q) = xr (ix3 (row t b) ch q)) →
            ∀ (b : Fin 4) (ch : Fin 64) (q : Fin 9216),
              out0_5 (F := Ideal) x0 a1 a2 a3 a4 (ix3 b ch q) = G xr a1 a2 a3 a4 (ix3 (row t b) ch q))
    (xr : Vec Ideal S32x64x9216 .f32) (a1 : Vec Ideal S8x64 .f32) (a2 : Vec Ideal S8 .f32) (a3 : Vec Ideal S64x8 .f32) (a4 : Vec Ideal S64 .f32)
    (t : Fin 8) (x0 : Vec Ideal S4x64x9216 .f32)
    (hx : ∀ (b : Fin 4) (ch : Fin 64) (q : Fin 9216), x0 (ix3 b ch q) = xr (ix3 (row t b) ch q))
    (j : S4x64x9216.Idx) (i : S32x64x9216.Idx)
    (h0 : (i 0).val = 4 * t.val + (j 0).val) (h1 : (i 1).val = (j 1).val) (h2 : (i 2).val = (j 2).val) :
    out0_5 (F := Ideal) x0 a1 a2 a3 a4 j = G xr a1 a2 a3 a4 i := by
  have e : i = ix3 (row t (j 0)) (j 1) (j 2) := by
    funext a
    apply Fin.ext
    match a with
    | ⟨0, _⟩ => exact h0
    | ⟨1, _⟩ => exact h1
    | ⟨2, _⟩ => exact h2
  rw [e]
  exact (congrArg (out0_5 (F := Ideal) x0 a1 a2 a3 a4) (eq_ix3 j)).trans (hG xr a1 a2 a3 a4 t x0 hx (j 0) (j 1) (j 2))

/-- What point `t` writes back is its block of `G` of the arrays as the region finds them. -/
theorem flushed_eq
    (G : Vec Ideal S32x64x9216 .f32 → Vec Ideal S8x64 .f32 → Vec Ideal S8 .f32 → Vec Ideal S64x8 .f32 → Vec Ideal S64 .f32 → Vec Ideal S32x64x9216 .f32)
    (hG : ∀ (xr : Vec Ideal S32x64x9216 .f32) (a1 : Vec Ideal S8x64 .f32) (a2 : Vec Ideal S8 .f32) (a3 : Vec Ideal S64x8 .f32) (a4 : Vec Ideal S64 .f32)
            (t : Fin 8) (x0 : Vec Ideal S4x64x9216 .f32),
            (∀ (b : Fin 4) (ch : Fin 64) (q : Fin 9216), x0 (ix3 b ch q) = xr (ix3 (row t b) ch q)) →
            ∀ (b : Fin 4) (ch : Fin 64) (q : Fin 9216),
              out0_5 (F := Ideal) x0 a1 a2 a3 a4 (ix3 b ch q) = G xr a1 a2 a3 a4 (ix3 (row t b) ch q))
    (c : Dev nD) (t : Fin cfg0.N) :
    (dats m 0 c).flushed 5 t = ((cfg0.win 5).blk t).view.read (Elt Ideal)
      (G (V m c main_v0) (V m c main_arg1) (V m c main_arg2) (V m c main_arg3) (V m c main_arg4)) := by
  obtain ⟨-, -, -, e0, e1, e2, -⟩ := idx_facts t
  show (cfg0.win 5).cut (grid0.coords t) ((dats m 0 c).after 5 t) = _
  rw [after0_5, iblk1_eq, iblk2_eq, iblk3_eq, iblk4_eq]
  funext j
  show out0_5 (iblk m c 0 t) (V m c main_arg1) (V m c main_arg2) (V m c main_arg3) (V m c main_arg4) j
    = G (V m c main_v0) (V m c main_arg1) (V m c main_arg2) (V m c main_arg3) (V m c main_arg4) (((cfg0.win 5).blk t).view.emb j)
  refine block_of_rows G hG (V m c main_v0) (V m c main_arg1) (V m c main_arg2) (V m c main_arg3) (V m c main_arg4) (pt t) (iblk m c 0 t)
    (fun b ch q => iblk0_apply m c t (ix3 b ch q) (ix3 (row (pt t) b) ch q) rfl rfl rfl) j (((cfg0.win 5).blk t).view.emb j) ?_ ?_ ?_
  · show win0_5.index t (0 : Fin 3) * 4 + 1 * (j 0).val = 4 * t.val + (j 0).val
    rw [e0]; omega
  · show win0_5.index t (1 : Fin 3) * 64 + 1 * (j 1).val = (j 1).val
    rw [e1]; omega
  · show win0_5.index t (2 : Fin 3) * 9216 + 1 * (j 2).val = (j 2).val
    rw [e2]; omega

/-- An index of the array is in point `t`'s block iff each coordinate is in the block's range on its axis. -/
theorem mem_blk (t : Fin cfg0.N) (i : S32x64x9216.Idx) :
    i ∈ ((cfg0.win 5).blk t).view.set ↔ ∀ a : Fin 3, win0_5.index t a * S4x64x9216.size a ≤ (i a).val
      ∧ (i a).val < win0_5.index t a * S4x64x9216.size a + S4x64x9216.size a := by
  show i ∈ ((View.whole main_v1).slice (win0_5.rect t)).set ↔ _
  rw [View.set_slice_whole, Rect.mem_set_unit]
  exact Iff.rfl

/-- Every index of the array is in the block of the point that works on its row: row `r` is in point `r / 4`'s. -/
theorem cover (i : S32x64x9216.Idx) :
    ∃ t : Fin cfg0.N, (cfg0.win 5).flush t = true ∧ i ∈ ((cfg0.win 5).blk t).view.set := by
  have hi0 : (i 0).val < 32 := (i 0).isLt
  have hi1 : (i 1).val < 64 := (i 1).isLt
  have hi2 : (i 2).val < 9216 := (i 2).isLt
  obtain ⟨t, ht⟩ : ∃ t : Fin cfg0.N, t.val = (i 0).val / 4 :=
    ⟨⟨(i 0).val / 4, by rw [show cfg0.N = 8 from N_0]; omega⟩, rfl⟩
  obtain ⟨-, -, -, e0, e1, e2, -⟩ := idx_facts t
  refine ⟨t, flush0_5 t, ?_⟩
  rw [mem_blk]
  intro a
  match a with
  | ⟨0, _⟩ =>
    show win0_5.index t (0 : Fin 3) * 4 ≤ (i 0).val ∧ (i 0).val < win0_5.index t (0 : Fin 3) * 4 + 4
    rw [e0]; omega
  | ⟨1, _⟩ =>
    show win0_5.index t (1 : Fin 3) * 64 ≤ (i 1).val ∧ (i 1).val < win0_5.index t (1 : Fin 3) * 64 + 64
    rw [e1]; omega
  | ⟨2, _⟩ =>
    show win0_5.index t (2 : Fin 3) * 9216 ≤ (i 2).val ∧ (i 2).val < win0_5.index t (2 : Fin 3) * 9216 + 9216
    rw [e2]; omega

/-- The output array after the last point is `G` of the arrays as the region finds them. -/
theorem final
    (G : Vec Ideal S32x64x9216 .f32 → Vec Ideal S8x64 .f32 → Vec Ideal S8 .f32 → Vec Ideal S64x8 .f32 → Vec Ideal S64 .f32 → Vec Ideal S32x64x9216 .f32)
    (hG : ∀ (xr : Vec Ideal S32x64x9216 .f32) (a1 : Vec Ideal S8x64 .f32) (a2 : Vec Ideal S8 .f32) (a3 : Vec Ideal S64x8 .f32) (a4 : Vec Ideal S64 .f32)
            (t : Fin 8) (x0 : Vec Ideal S4x64x9216 .f32),
            (∀ (b : Fin 4) (ch : Fin 64) (q : Fin 9216), x0 (ix3 b ch q) = xr (ix3 (row t b) ch q)) →
            ∀ (b : Fin 4) (ch : Fin 64) (q : Fin 9216),
              out0_5 (F := Ideal) x0 a1 a2 a3 a4 (ix3 b ch q) = G xr a1 a2 a3 a4 (ix3 (row t b) ch q))
    (c : Dev nD) :
    (dats m 0 c).arrAt 5 cfg0.N
      = G (V m c main_v0) (V m c main_arg1) (V m c main_arg2) (V m c main_arg3) (V m c main_arg4) :=
  (dats m 0 c).arrAt_eq_of_cover 5
    (G (V m c main_v0) (V m c main_arg1) (V m c main_arg2) (V m c main_arg3) (V m c main_arg4))
    (fun t _ => flushed_eq m G hG c t) cover

/-- The program's result: the one operation after the region splits the output array's last axis in two. -/
theorem tail_v2 (c : Dev nD) :
    Pipeline.afterTail₀ cfgs (dats m) 0 (V0 m) [hostOps1] c main_v2
      = shapeCast S32x64x96x96 ((dats m 0 c).arrAt 5 cfg0.N) shapeCasts_S32x64x9216_S32x64x96x96 := by
  unfold Pipeline.afterTail₀
  show StableHlo.after hostOps1 _ (Proc.devRef .tc main_v2) = _
  after_results
  have e := Pipeline.withArrays_arr spec0 launch0.win.arr_inj c (V0 m c) (fun w => (dats m 0 c).arrAt w cfg0.N) 5
  funext i
  show shapeCast S32x64x96x96 (Pipeline.withArrays spec0 c (V0 m c) (fun w => (dats m 0 c).arrAt w cfg0.N)
      (Proc.devRef .tc (Pipeline.arrRef spec0 5))) shapeCasts_S32x64x9216_S32x64x96x96 i = _
  rw [e]

/-- The run: the result is the reshape of `G` of the reshaped first argument and the four small arguments, and the
    arguments end as launched. -/
theorem run
    (G : Vec Ideal S32x64x9216 .f32 → Vec Ideal S8x64 .f32 → Vec Ideal S8 .f32 → Vec Ideal S64x8 .f32 → Vec Ideal S64 .f32 → Vec Ideal S32x64x9216 .f32)
    (hG : ∀ (xr : Vec Ideal S32x64x9216 .f32) (a1 : Vec Ideal S8x64 .f32) (a2 : Vec Ideal S8 .f32) (a3 : Vec Ideal S64x8 .f32) (a4 : Vec Ideal S64 .f32)
            (t : Fin 8) (x0 : Vec Ideal S4x64x9216 .f32),
            (∀ (b : Fin 4) (ch : Fin 64) (q : Fin 9216), x0 (ix3 b ch q) = xr (ix3 (row t b) ch q)) →
            ∀ (b : Fin 4) (ch : Fin 64) (q : Fin 9216),
              out0_5 (F := Ideal) x0 a1 a2 a3 a4 (ix3 b ch q) = G xr a1 a2 a3 a4 (ix3 (row t b) ch q))
    (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2)
        = shapeCast S32x64x96x96
            (G (shapeCast S32x64x9216 (m ((c.tc : Thread nD τ).loc main_arg0)) shapeCasts_S32x64x96x96_S32x64x9216)
              (m ((c.tc : Thread nD τ).loc main_arg1)) (m ((c.tc : Thread nD τ).loc main_arg2))
              (m ((c.tc : Thread nD τ).loc main_arg3)) (m ((c.tc : Thread nD τ).loc main_arg4)))
            shapeCasts_S32x64x9216_S32x64x96x96
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v2 (Pipeline.mem_restRefs_of main_v2 (by decide) (by decide))).trans
        ((tail_v2 m c).trans (by
          rw [final m G hG c, V_v0 m c, V_main_arg1 m c, V_main_arg2 m c, V_main_arg3 m c, V_main_arg4 m c])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Arr

end
-- ==== Proof.RefDefs.lean ====
import proofs.«179594_j15358803050800_2_alg».proof.Proof.Gen.ReferenceIdeal

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The reference, stage by stage

Each stage is the literal composition of the operations of the printed reference that compute it,
in the printed order: a value used twice appears twice. -/

/-- The input with its two spatial axes flattened into one of length 96·96 = 9216. -/
def rXr (a0 : Vec F S32x64x96x96 .f32) : Vec F S32x64x9216 .f32 :=
  shapeCast S32x64x9216 a0 shapeCasts_S32x64x96x96_S32x64x9216

/-- The channel covariance: the rows centred by their mean over the 9216 positions, their Gram matrix over
    positions, divided by 9216. -/
def rCov (x : Vec F S32x64x9216 .f32) : Vec F S32x64x64 .f32 :=
  Host.divf
    (Host.dotGeneral dot_S32x64x9216_S32x64x9216_S32x64x64_2_2_1_1_0_0 none
      (subf x (broadcastInDim S32x64x9216 ![0, 1, 2] bcast_S32x64x1_S32x64x9216_0_1_2
        (Host.divf
          (broadcastInDim S32x64x1 ![0, 1] bcast_S32x64_S32x64x1_0_1
            (Host.reduceAdd x (constant S_ .f32 0x00000000#32) reducesTo_S32x64x9216_S32x64_d2 h_S_))
          (broadcastInDim S32x64x1 ![] bcast_S_S32x64x1 (constant S_ .f32 0x46100000#32)))))
      (subf x (broadcastInDim S32x64x9216 ![0, 1, 2] bcast_S32x64x1_S32x64x9216_0_1_2
        (Host.divf
          (broadcastInDim S32x64x1 ![0, 1] bcast_S32x64_S32x64x1_0_1
            (Host.reduceAdd x (constant S_ .f32 0x00000000#32) reducesTo_S32x64x9216_S32x64_d2 h_S_))
          (broadcastInDim S32x64x1 ![] bcast_S_S32x64x1 (constant S_ .f32 0x46100000#32))))))
    (broadcastInDim S32x64x64 ![] bcast_S_S32x64x64 (constant S_ .f32 0x46100000#32))

/-- Three times the 64×64 identity: 3 · [row + 0 = column]. -/
def rI3 : Vec F S64x64 .f32 :=
  mulf
    (broadcastInDim S64x64 ![] bcast_S_S64x64 (constant S_ .f32 0x40400000#32))
    (uitofp .f32
      (cmpi .eq
        (addi (iotaInDim S64x64 32 0) (broadcastInDim S64x64 ![] bcast_S_S64x64 (constantI S_ 32 0#32)))
        (iotaInDim S64x64 32 1)))

/-- The trace of each batch's matrix: the sum over both matrix axes of the matrix masked to its diagonal. -/
def rTr (C : Vec F S32x64x64 .f32) : Vec F S32 .f32 :=
  Host.reduceAdd
    (select
      (broadcastInDim S32x64x64 ![1, 2] bcast_S64x64_S32x64x64_1_2
        (cmpi .eq
          (addi (iotaInDim S64x64 32 0) (broadcastInDim S64x64 ![] bcast_S_S64x64 (constantI S_ 32 0#32)))
          (iotaInDim S64x64 32 1)))
      C
      (broadcastInDim S32x64x64 ![] bcast_S_S32x64x64 (constant S_ .f32 0x00000000#32)))
    (constant S_ .f32 0x00000000#32) reducesTo_S32x64x64_S32_d1_2 h_S_

/-- The matrix divided by its batch's trace. -/
def rA (C : Vec F S32x64x64 .f32) (t : Vec F S32 .f32) : Vec F S32x64x64 .f32 :=
  Host.divf C
    (broadcastInDim S32x64x64 ![0, 1, 2] bcast_S32x1x1_S32x64x64_0_1_2
      (broadcastInDim S32x1x1 ![0] bcast_S32_S32x1x1_0 t))

/-- `I` broadcast over the batch, minus `M`. -/
def rSub (I : Vec F S64x64 .f32) (M : Vec F S32x64x64 .f32) : Vec F S32x64x64 .f32 :=
  subf
    (broadcastInDim S32x64x64 ![0, 1, 2] bcast_S1x64x64_S32x64x64_0_1_2
      (broadcastInDim S1x64x64 ![1, 2] bcast_S64x64_S1x64x64_1_2 I))
    M

/-- Half of `rSub I M`. -/
def rHalf (I : Vec F S64x64 .f32) (M : Vec F S32x64x64 .f32) : Vec F S32x64x64 .f32 :=
  mulf (broadcastInDim S32x64x64 ![] bcast_S_S32x64x64 (constant S_ .f32 0x3F000000#32)) (rSub I M)

/-- The batched 64×64 matrix product. -/
def rMM (A B : Vec F S32x64x64 .f32) : Vec F S32x64x64 .f32 :=
  Host.dotGeneral dot_S32x64x64_S32x64x64_S32x64x64_2_1_1_2_0_0 none A B

/-- The iteration's first pair: (A·T, T) with T = ½(3I − A). -/
def rInit (I : Vec F S64x64 .f32) (A : Vec F S32x64x64 .f32) : Vec F S32x64x64 .f32 × Vec F S32x64x64 .f32 :=
  (rMM A (rHalf I A), rHalf I A)

/-- One step of the coupled iteration: with T = ½(3I − Z)·Y, the pair (Y, Z) becomes (Y·T, T·Z). -/
def rStep (I : Vec F S64x64 .f32) (p : Vec F S32x64x64 .f32 × Vec F S32x64x64 .f32) :
    Vec F S32x64x64 .f32 × Vec F S32x64x64 .f32 :=
  (rMM p.1 (rMM (rHalf I p.2) p.1), rMM (rMM (rHalf I p.2) p.1) p.2)

/-- The last half step and the rescaling by the square root of the trace: ½ · Y·(3I − Z·Y) · √t. -/
def rFin (I : Vec F S64x64 .f32) (t : Vec F S32 .f32) (p : Vec F S32x64x64 .f32 × Vec F S32x64x64 .f32) :
    Vec F S32x64x64 .f32 :=
  mulf
    (mulf (broadcastInDim S32x64x64 ![] bcast_S_S32x64x64 (constant S_ .f32 0x3F000000#32))
      (rMM p.1 (rSub I (rMM p.2 p.1))))
    (broadcastInDim S32x64x64 ![0, 1, 2] bcast_S32x1x1_S32x64x64_0_1_2
      (broadcastInDim S32x1x1 ![0] bcast_S32_S32x1x1_0 (Host.sqrt t)))

/-- The gate: the column means of `S`, through the two-layer perceptron (ReLU between), then the logistic function
    written 1 / (1 + exp (−·)). -/
def rGate (S : Vec F S32x64x64 .f32) (a1 : Vec F S8x64 .f32) (a2 : Vec F S8 .f32) (a3 : Vec F S64x8 .f32)
    (a4 : Vec F S64 .f32) : Vec F S32x64 .f32 :=
  Host.divf
    (broadcastInDim S32x64 ![] bcast_S_S32x64 (constant S_ .f32 0x3F800000#32))
    (addf
      (broadcastInDim S32x64 ![] bcast_S_S32x64 (constant S_ .f32 0x3F800000#32))
      (Host.exp (Host.negf
        (addf
          (Host.dotGeneral dot_S32x8_S8x64_S32x64_1_0_0_1_n_n none
            (maximumf
              (addf
                (Host.dotGeneral dot_S32x64_S64x8_S32x8_1_0_0_1_n_n none
                  (Host.divf
                    (Host.reduceAdd S (constant S_ .f32 0x00000000#32) reducesTo_S32x64x64_S32x64_d1 h_S_)
                    (broadcastInDim S32x64 ![] bcast_S_S32x64 (constant S_ .f32 0x42800000#32)))
                  (transpose S64x8 [1, 0] a1 transposes_S8x64_S64x8_1_0))
                (broadcastInDim S32x8 ![0, 1] bcast_S1x8_S32x8_0_1 (broadcastInDim S1x8 ![1] bcast_S8_S1x8_1 a2)))
              (broadcastInDim S32x8 ![] bcast_S_S32x8 (constant S_ .f32 0x00000000#32)))
            (transpose S8x64 [1, 0] a3 transposes_S64x8_S8x64_1_0))
          (broadcastInDim S32x64 ![0, 1] bcast_S1x64_S32x64_0_1 (broadcastInDim S1x64 ![1] bcast_S64_S1x64_1 a4))))))

/-- The input scaled, channel by channel, by the gate. -/
def rOut (a0 : Vec F S32x64x96x96 .f32) (g : Vec F S32x64 .f32) : Vec F S32x64x96x96 .f32 :=
  mulf a0
    (broadcastInDim S32x64x96x96 ![0, 1, 2, 3] bcast_S32x64x1x1_S32x64x96x96_0_1_2_3
      (broadcastInDim S32x64x1x1 ![0, 1] bcast_S32x64_S32x64x1x1_0_1 g))

/-- The whole reference as a function of its five arguments. -/
def refOut (a0 : Vec F S32x64x96x96 .f32) (a1 : Vec F S8x64 .f32) (a2 : Vec F S8 .f32) (a3 : Vec F S64x8 .f32)
    (a4 : Vec F S64 .f32) : Vec F S32x64x96x96 .f32 :=
  rOut a0 (rGate (rFin rI3 (rTr (rCov (rXr a0)))
    (rStep rI3 (rStep rI3 (rStep rI3 (rInit rI3 (rA (rCov (rXr a0)) (rTr (rCov (rXr a0))))))))) a1 a2 a3 a4)

end Cert.ReferenceIdeal.HandRun

end
-- ==== Proof.RefRun.lean ====
import proofs.«179594_j15358803050800_2_alg».proof.Proof.Gen.ReferenceIdeal
import proofs.«179594_j15358803050800_2_alg».proof.Proof.RefDefs
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The program as a list of operations

@main's 113 operations in order, the two outlined functions' bodies written at their call sites over the calls'
own buffers; cut into nine consecutive segments, one per stage. -/

/-- The operations that compute the flattened input, the covariance and the scaled identity: the reference's first 23. -/
abbrev segCov : List (HloOp τ sig (Elt F)) :=
  [ reshape main_arg0 main_v0 rfl shapeCasts_S32x64x96x96_S32x64x9216,
    nullary main_cst (constant S_ .f32 0x00000000#32),
    binary main_v0 main_cst main_v1 ((fun x v => Host.reduceAdd x v reducesTo_S32x64x9216_S32x64_d2 h_S_) : (⟨S32x64x9216, .f32⟩ : BufTy).Contents (Elt F) → (⟨S_, .f32⟩ : BufTy).Contents (Elt F) → (⟨S32x64, .f32⟩ : BufTy).Contents (Elt F)),
    unary main_v1 main_v2 (broadcastInDim S32x64x1 ![0, 1] bcast_S32x64_S32x64x1_0_1 : (⟨S32x64, .f32⟩ : BufTy).Contents (Elt F) → (⟨S32x64x1, .f32⟩ : BufTy).Contents (Elt F)),
    nullary main_cst_0 (constant S_ .f32 0x46100000#32),
    unary main_cst_0 main_v3 (broadcastInDim S32x64x1 ![] bcast_S_S32x64x1 : (⟨S_, .f32⟩ : BufTy).Contents (Elt F) → (⟨S32x64x1, .f32⟩ : BufTy).Contents (Elt F)),
    binary main_v2 main_v3 main_v4 (Host.divf : (⟨S32x64x1, .f32⟩ : BufTy).Contents (Elt F) → (⟨S32x64x1, .f32⟩ : BufTy).Contents (Elt F) → (⟨S32x64x1, .f32⟩ : BufTy).Contents (Elt F)),
    unary main_v4 main_v5 (broadcastInDim S32x64x9216 ![0, 1, 2] bcast_S32x64x1_S32x64x9216_0_1_2 : (⟨S32x64x1, .f32⟩ : BufTy).Contents (Elt F) → (⟨S32x64x9216, .f32⟩ : BufTy).Contents (Elt F)),
    binary main_v0 main_v5 main_v6 (subf : (⟨S32x64x9216, .f32⟩ : BufTy).Contents (Elt F) → (⟨S32x64x9216, .f32⟩ : BufTy).Contents (Elt F) → (⟨S32x64x9216, .f32⟩ : BufTy).Contents (Elt F)),
    binary main_v6 main_v6 main_v7 ((fun l r => Host.dotGeneral dot_S32x64x9216_S32x64x9216_S32x64x64_2_2_1_1_0_0 none l r) : (⟨S32x64x9216, .f32⟩ : BufTy).Contents (Elt F) → (⟨S32x64x9216, .f32⟩ : BufTy).Contents (Elt F) → (⟨S32x64x64, .f32⟩ : BufTy).Contents (Elt F)),
    nullary main_cst_1 (constant S_ .f32 0x46100000#32),
    unary main_cst_1 main_v8 (broadcastInDim S32x64x64 ![] bcast_S_S32x64x64 : (⟨S_, .f32⟩ : BufTy).Contents (Elt F) → (⟨S32x64x64, .f32⟩ : BufTy).Contents (Elt F)),
    binary main_v7 main_v8 main_v9 (Host.divf : (⟨S32x64x64, .f32⟩ : BufTy).Contents (Elt F) → (⟨S32x64x64, .f32⟩ : BufTy).Contents (Elt F) → (⟨S32x64x64, .f32⟩ : BufTy).Contents (Elt F)),
    nullary main_v10 (iotaInDim S64x64 32 0),
    nullary main_v11 (iotaInDim S64x64 32 1),
    nullary main_c (constantI S_ 32 0#32),
    unary main_c main_v12 (broadcastInDim S64x64 ![] bcast_S_S64x64 : (⟨S_, .i32⟩ : BufTy).Contents (Elt F) → (⟨S64x64, .i32⟩ : BufTy).Contents (Elt F)),
    binary main_v10 main_v12 main_v13 (addi : (⟨S64x64, .i32⟩ : BufTy).Contents (Elt F) → (⟨S64x64, .i32⟩ : BufTy).Contents (Elt F) → (⟨S64x64, .i32⟩ : BufTy).Contents (Elt F)),
    binary main_v13 main_v11 main_v14 (cmpi .eq : (⟨S64x64, .i32⟩ : BufTy).Contents (Elt F) → (⟨S64x64, .i32⟩ : BufTy).Contents (Elt F) → (⟨S64x64, .i1⟩ : BufTy).Contents (Elt F)),
    unary main_v14 main_v15 (uitofp .f32 : (⟨S64x64, .i1⟩ : BufTy).Contents (Elt F) → (⟨S64x64, .f32⟩ : BufTy).Contents (Elt F)),
    nullary main_cst_2 (constant S_ .f32 0x40400000#32),
    unary main_cst_2 main_v16 (broadcastInDim S64x64 ![] bcast_S_S64x64 : (⟨S_, .f32⟩ : BufTy).Contents (Elt F) → (⟨S64x64, .f32⟩ : BufTy).Contents (Elt F)),
    binary main_v16 main_v15 main_v17 (mulf : (⟨S64x64, .f32⟩ : BufTy).Contents (Elt F) → (⟨S64x64, .f32⟩ : BufTy).Contents (Elt F) → (⟨S64x64, .f32⟩ : BufTy).Contents (Elt F)) ]

/-- The twelve operations of the trace (the diagonal mask, the masked select, the sum over both matrix axes). -/
abbrev segTr : List (HloOp τ sig (Elt F)) :=
  [ TRef.nullary main_call0.v0 (iotaInDim S64x64 32 0),
    TRef.nullary main_call0.v1 (iotaInDim S64x64 32 1),
    TRef.nullary main_call0.c (constantI S_ 32 0#32),
    TRef.unary main_call0.c main_call0.v2 (broadcastInDim S64x64 ![] bcast_S_S64x64),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S32x64x64 ![] bcast_S_S32x64x64),
    TRef.unary main_call0.v4 main_call0.call0.v0 (broadcastInDim S32x64x64 ![1, 2] bcast_S64x64_S32x64x64_1_2),
    TRef.ternary main_call0.call0.v0 (.of main_v9) main_call0.v5 main_call0.call0.v1 select,
    TRef.nullary main_call0.cst_0 (constant S_ .f32 0x00000000#32),
    TRef.binary main_call0.call0.v1 main_call0.cst_0 main_call0.v7 (fun x v => Host.reduceAdd x v reducesTo_S32x64x64_S32_d1_2 h_S_) ]

/-- The ten operations that normalise the covariance by its trace and form the iteration's first pair. -/
abbrev segInit : List (HloOp τ sig (Elt F)) :=
  [ unary main_v18 main_v19 (broadcastInDim S32x1x1 ![0] bcast_S32_S32x1x1_0 : (⟨S32, .f32⟩ : BufTy).Contents (Elt F) → (⟨S32x1x1, .f32⟩ : BufTy).Contents (Elt F)),
    unary main_v19 main_v20 (broadcastInDim S32x64x64 ![0, 1, 2] bcast_S32x1x1_S32x64x64_0_1_2 : (⟨S32x1x1, .f32⟩ : BufTy).Contents (Elt F) → (⟨S32x64x64, .f32⟩ : BufTy).Contents (Elt F)),
    binary main_v9 main_v20 main_v21 (Host.divf : (⟨S32x64x64, .f32⟩ : BufTy).Contents (Elt F) → (⟨S32x64x64, .f32⟩ : BufTy).Contents (Elt F) → (⟨S32x64x64, .f32⟩ : BufTy).Contents (Elt F)),
    unary main_v17 main_v22 (broadcastInDim S1x64x64 ![1, 2] bcast_S64x64_S1x64x64_1_2 : (⟨S64x64, .f32⟩ : BufTy).Contents (Elt F) → (⟨S1x64x64, .f32⟩ : BufTy).Contents (Elt F)),
    unary main_v22 main_v23 (broadcastInDim S32x64x64 ![0, 1, 2] bcast_S1x64x64_S32x64x64_0_1_2 : (⟨S1x64x64, .f32⟩ : BufTy).Contents (Elt F) → (⟨S32x64x64, .f32⟩ : BufTy).Contents (Elt F)),
    binary main_v23 main_v21 main_v24 (subf : (⟨S32x64x64, .f32⟩ : BufTy).Contents (Elt F) → (⟨S32x64x64, .f32⟩ : BufTy).Contents (Elt F) → (⟨S32x64x64, .f32⟩ : BufTy).Contents (Elt F)),
    nullary main_cst_3 (constant S_ .f32 0x3F000000#32),
    unary main_cst_3 main_v25 (broadcastInDim S32x64x64 ![] bcast_S_S32x64x64 : (⟨S_, .f32⟩ : BufTy).Contents (Elt F) → (⟨S32x64x64, .f32⟩ : BufTy).Contents (Elt F)),
    binary main_v25 main_v24 main_v26 (mulf : (⟨S32x64x64, .f32⟩ : BufTy).Contents (Elt F) → (⟨S32x64x64, .f32⟩ : BufTy).Contents (Elt F) → (⟨S32x64x64, .f32⟩ : BufTy).Contents (Elt F)),
    binary main_v21 main_v26 main_v27 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)) ]

/-- The nine operations of the iteration's first step. -/
abbrev segStep1 : List (HloOp τ sig (Elt F)) :=
  [ unary main_v17 main_v28 (broadcastInDim S1x64x64 ![1, 2] bcast_S64x64_S1x64x64_1_2 : (⟨S64x64, .f32⟩ : BufTy).Contents (Elt F) → (⟨S1x64x64, .f32⟩ : BufTy).Contents (Elt F)),
    unary main_v28 main_v29 (broadcastInDim S32x64x64 ![0, 1, 2] bcast_S1x64x64_S32x64x64_0_1_2 : (⟨S1x64x64, .f32⟩ : BufTy).Contents (Elt F) → (⟨S32x64x64, .f32⟩ : BufTy).Contents (Elt F)),
    binary main_v29 main_v26 main_v30 (subf : (⟨S32x64x64, .f32⟩ : BufTy).Contents (Elt F) → (⟨S32x64x64, .f32⟩ : BufTy).Contents (Elt F) → (⟨S32x64x64, .f32⟩ : BufTy).Contents (Elt F)),
    nullary main_cst_4 (constant S_ .f32 0x3F000000#32),
    unary main_cst_4 main_v31 (broadcastInDim S32x64x64 ![] bcast_S_S32x64x64 : (⟨S_, .f32⟩ : BufTy).Contents (Elt F) → (⟨S32x64x64, .f32⟩ : BufTy).Contents (Elt F)),
    binary main_v31 main_v30 main_v32 (mulf : (⟨S32x64x64, .f32⟩ : BufTy).Contents (Elt F) → (⟨S32x64x64, .f32⟩ : BufTy).Contents (Elt F) → (⟨S32x64x64, .f32⟩ : BufTy).Contents (Elt F)),
    binary main_v32 main_v27 main_v33 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    binary main_v27 main_v33 main_v34 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    binary main_v33 main_v26 main_v35 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)) ]

/-- The nine operations of the iteration's second step. -/
abbrev segStep2 : List (HloOp τ sig (Elt F)) :=
  [ unary main_v17 main_v36 (broadcastInDim S1x64x64 ![1, 2] bcast_S64x64_S1x64x64_1_2 : (⟨S64x64, .f32⟩ : BufTy).Contents (Elt F) → (⟨S1x64x64, .f32⟩ : BufTy).Contents (Elt F)),
    unary main_v36 main_v37 (broadcastInDim S32x64x64 ![0, 1, 2] bcast_S1x64x64_S32x64x64_0_1_2 : (⟨S1x64x64, .f32⟩ : BufTy).Contents (Elt F) → (⟨S32x64x64, .f32⟩ : BufTy).Contents (Elt F)),
    binary main_v37 main_v35 main_v38 (subf : (⟨S32x64x64, .f32⟩ : BufTy).Contents (Elt F) → (⟨S32x64x64, .f32⟩ : BufTy).Contents (Elt F) → (⟨S32x64x64, .f32⟩ : BufTy).Contents (Elt F)),
    nullary main_cst_5 (constant S_ .f32 0x3F000000#32),
    unary main_cst_5 main_v39 (broadcastInDim S32x64x64 ![] bcast_S_S32x64x64 : (⟨S_, .f32⟩ : BufTy).Contents (Elt F) → (⟨S32x64x64, .f32⟩ : BufTy).Contents (Elt F)),
    binary main_v39 main_v38 main_v40 (mulf : (⟨S32x64x64, .f32⟩ : BufTy).Contents (Elt F) → (⟨S32x64x64, .f32⟩ : BufTy).Contents (Elt F) → (⟨S32x64x64, .f32⟩ : BufTy).Contents (Elt F)),
    binary main_v40 main_v34 main_v41 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    binary main_v34 main_v41 main_v42 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    binary main_v41 main_v35 main_v43 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)) ]

/-- The nine operations of the iteration's third step. -/
abbrev segStep3 : List (HloOp τ sig (Elt F)) :=
  [ unary main_v17 main_v44 (broadcastInDim S1x64x64 ![1, 2] bcast_S64x64_S1x64x64_1_2 : (⟨S64x64, .f32⟩ : BufTy).Contents (Elt F) → (⟨S1x64x64, .f32⟩ : BufTy).Contents (Elt F)),
    unary main_v44 main_v45 (broadcastInDim S32x64x64 ![0, 1, 2] bcast_S1x64x64_S32x64x64_0_1_2 : (⟨S1x64x64, .f32⟩ : BufTy).Contents (Elt F) → (⟨S32x64x64, .f32⟩ : BufTy).Contents (Elt F)),
    binary main_v45 main_v43 main_v46 (subf : (⟨S32x64x64, .f32⟩ : BufTy).Contents (Elt F) → (⟨S32x64x64, .f32⟩ : BufTy).Contents (Elt F) → (⟨S32x64x64, .f32⟩ : BufTy).Contents (Elt F)),
    nullary main_cst_6 (constant S_ .f32 0x3F000000#32),
    unary main_cst_6 main_v47 (broadcastInDim S32x64x64 ![] bcast_S_S32x64x64 : (⟨S_, .f32⟩ : BufTy).Contents (Elt F) → (⟨S32x64x64, .f32⟩ : BufTy).Contents (Elt F)),
    binary main_v47 main_v46 main_v48 (mulf : (⟨S32x64x64, .f32⟩ : BufTy).Contents (Elt F) → (⟨S32x64x64, .f32⟩ : BufTy).Contents (Elt F) → (⟨S32x64x64, .f32⟩ : BufTy).Contents (Elt F)),
    binary main_v48 main_v42 main_v49 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    binary main_v42 main_v49 main_v50 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    binary main_v49 main_v43 main_v51 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)) ]

/-- The twelve operations of the last half step and the rescaling. -/
abbrev segFin : List (HloOp τ sig (Elt F)) :=
  [ binary main_v51 main_v50 main_v52 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    unary main_v17 main_v53 (broadcastInDim S1x64x64 ![1, 2] bcast_S64x64_S1x64x64_1_2 : (⟨S64x64, .f32⟩ : BufTy).Contents (Elt F) → (⟨S1x64x64, .f32⟩ : BufTy).Contents (Elt F)),
    unary main_v53 main_v54 (broadcastInDim S32x64x64 ![0, 1, 2] bcast_S1x64x64_S32x64x64_0_1_2 : (⟨S1x64x64, .f32⟩ : BufTy).Contents (Elt F) → (⟨S32x64x64, .f32⟩ : BufTy).Contents (Elt F)),
    binary main_v54 main_v52 main_v55 (subf : (⟨S32x64x64, .f32⟩ : BufTy).Contents (Elt F) → (⟨S32x64x64, .f32⟩ : BufTy).Contents (Elt F) → (⟨S32x64x64, .f32⟩ : BufTy).Contents (Elt F)),
    binary main_v50 main_v55 main_v56 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    nullary main_cst_7 (constant S_ .f32 0x3F000000#32),
    unary main_cst_7 main_v57 (broadcastInDim S32x64x64 ![] bcast_S_S32x64x64 : (⟨S_, .f32⟩ : BufTy).Contents (Elt F) → (⟨S32x64x64, .f32⟩ : BufTy).Contents (Elt F)),
    binary main_v57 main_v56 main_v58 (mulf : (⟨S32x64x64, .f32⟩ : BufTy).Contents (Elt F) → (⟨S32x64x64, .f32⟩ : BufTy).Contents (Elt F) → (⟨S32x64x64, .f32⟩ : BufTy).Contents (Elt F)),
    unary main_v18 main_v59 (Host.sqrt : (⟨S32, .f32⟩ : BufTy).Contents (Elt F) → (⟨S32, .f32⟩ : BufTy).Contents (Elt F)),
    unary main_v59 main_v60 (broadcastInDim S32x1x1 ![0] bcast_S32_S32x1x1_0 : (⟨S32, .f32⟩ : BufTy).Contents (Elt F) → (⟨S32x1x1, .f32⟩ : BufTy).Contents (Elt F)),
    unary main_v60 main_v61 (broadcastInDim S32x64x64 ![0, 1, 2] bcast_S32x1x1_S32x64x64_0_1_2 : (⟨S32x1x1, .f32⟩ : BufTy).Contents (Elt F) → (⟨S32x64x64, .f32⟩ : BufTy).Contents (Elt F)),
    binary main_v58 main_v61 main_v62 (mulf : (⟨S32x64x64, .f32⟩ : BufTy).Contents (Elt F) → (⟨S32x64x64, .f32⟩ : BufTy).Contents (Elt F) → (⟨S32x64x64, .f32⟩ : BufTy).Contents (Elt F)) ]

/-- The twenty-six operations of the gate. -/
abbrev segGate : List (HloOp τ sig (Elt F)) :=
  [ nullary main_cst_8 (constant S_ .f32 0x00000000#32),
    binary main_v62 main_cst_8 main_v63 ((fun x v => Host.reduceAdd x v reducesTo_S32x64x64_S32x64_d1 h_S_) : (⟨S32x64x64, .f32⟩ : BufTy).Contents (Elt F) → (⟨S_, .f32⟩ : BufTy).Contents (Elt F) → (⟨S32x64, .f32⟩ : BufTy).Contents (Elt F)),
    nullary main_cst_9 (constant S_ .f32 0x42800000#32),
    unary main_cst_9 main_v64 (broadcastInDim S32x64 ![] bcast_S_S32x64 : (⟨S_, .f32⟩ : BufTy).Contents (Elt F) → (⟨S32x64, .f32⟩ : BufTy).Contents (Elt F)),
    binary main_v63 main_v64 main_v65 (Host.divf : (⟨S32x64, .f32⟩ : BufTy).Contents (Elt F) → (⟨S32x64, .f32⟩ : BufTy).Contents (Elt F) → (⟨S32x64, .f32⟩ : BufTy).Contents (Elt F)),
    unary main_arg1 main_v66 ((transpose S64x8 [1, 0] · transposes_S8x64_S64x8_1_0) : (⟨S8x64, .f32⟩ : BufTy).Contents (Elt F) → (⟨S64x8, .f32⟩ : BufTy).Contents (Elt F)),
    binary main_v65 main_v66 main_v67 ((fun l r => Host.dotGeneral dot_S32x64_S64x8_S32x8_1_0_0_1_n_n none l r) : (⟨S32x64, .f32⟩ : BufTy).Contents (Elt F) → (⟨S64x8, .f32⟩ : BufTy).Contents (Elt F) → (⟨S32x8, .f32⟩ : BufTy).Contents (Elt F)),
    unary main_arg2 main_v68 (broadcastInDim S1x8 ![1] bcast_S8_S1x8_1 : (⟨S8, .f32⟩ : BufTy).Contents (Elt F) → (⟨S1x8, .f32⟩ : BufTy).Contents (Elt F)),
    unary main_v68 main_v69 (broadcastInDim S32x8 ![0, 1] bcast_S1x8_S32x8_0_1 : (⟨S1x8, .f32⟩ : BufTy).Contents (Elt F) → (⟨S32x8, .f32⟩ : BufTy).Contents (Elt F)),
    binary main_v67 main_v69 main_v70 (addf : (⟨S32x8, .f32⟩ : BufTy).Contents (Elt F) → (⟨S32x8, .f32⟩ : BufTy).Contents (Elt F) → (⟨S32x8, .f32⟩ : BufTy).Contents (Elt F)),
    TRef.nullary main_call1.cst (constant S_ .f32 0x00000000#32),
    TRef.unary main_call1.cst main_call1.v0 (broadcastInDim S32x8 ![] bcast_S_S32x8),
    TRef.binary (.of main_v70) main_call1.v0 main_call1.v1 maximumf,
    unary main_arg3 main_v72 ((transpose S8x64 [1, 0] · transposes_S64x8_S8x64_1_0) : (⟨S64x8, .f32⟩ : BufTy).Contents (Elt F) → (⟨S8x64, .f32⟩ : BufTy).Contents (Elt F)),
    binary main_v71 main_v72 main_v73 ((fun l r => Host.dotGeneral dot_S32x8_S8x64_S32x64_1_0_0_1_n_n none l r) : (⟨S32x8, .f32⟩ : BufTy).Contents (Elt F) → (⟨S8x64, .f32⟩ : BufTy).Contents (Elt F) → (⟨S32x64, .f32⟩ : BufTy).Contents (Elt F)),
    unary main_arg4 main_v74 (broadcastInDim S1x64 ![1] bcast_S64_S1x64_1 : (⟨S64, .f32⟩ : BufTy).Contents (Elt F) → (⟨S1x64, .f32⟩ : BufTy).Contents (Elt F)),
    unary main_v74 main_v75 (broadcastInDim S32x64 ![0, 1] bcast_S1x64_S32x64_0_1 : (⟨S1x64, .f32⟩ : BufTy).Contents (Elt F) → (⟨S32x64, .f32⟩ : BufTy).Contents (Elt F)),
    binary main_v73 main_v75 main_v76 (addf : (⟨S32x64, .f32⟩ : BufTy).Contents (Elt F) → (⟨S32x64, .f32⟩ : BufTy).Contents (Elt F) → (⟨S32x64, .f32⟩ : BufTy).Contents (Elt F)),
    unary main_v76 main_v77 (Host.negf : (⟨S32x64, .f32⟩ : BufTy).Contents (Elt F) → (⟨S32x64, .f32⟩ : BufTy).Contents (Elt F)),
    unary main_v77 main_v78 (Host.exp : (⟨S32x64, .f32⟩ : BufTy).Contents (Elt F) → (⟨S32x64, .f32⟩ : BufTy).Contents (Elt F)),
    nullary main_cst_10 (constant S_ .f32 0x3F800000#32),
    unary main_cst_10 main_v79 (broadcastInDim S32x64 ![] bcast_S_S32x64 : (⟨S_, .f32⟩ : BufTy).Contents (Elt F) → (⟨S32x64, .f32⟩ : BufTy).Contents (Elt F)),
    binary main_v79 main_v78 main_v80 (addf : (⟨S32x64, .f32⟩ : BufTy).Contents (Elt F) → (⟨S32x64, .f32⟩ : BufTy).Contents (Elt F) → (⟨S32x64, .f32⟩ : BufTy).Contents (Elt F)),
    nullary main_cst_11 (constant S_ .f32 0x3F800000#32),
    unary main_cst_11 main_v81 (broadcastInDim S32x64 ![] bcast_S_S32x64 : (⟨S_, .f32⟩ : BufTy).Contents (Elt F) → (⟨S32x64, .f32⟩ : BufTy).Contents (Elt F)),
    binary main_v81 main_v80 main_v82 (Host.divf : (⟨S32x64, .f32⟩ : BufTy).Contents (Elt F) → (⟨S32x64, .f32⟩ : BufTy).Contents (Elt F) → (⟨S32x64, .f32⟩ : BufTy).Contents (Elt F)) ]

/-- The three operations that scale the input by the gate. -/
abbrev segOut : List (HloOp τ sig (Elt F)) :=
  [ unary main_v82 main_v83 (broadcastInDim S32x64x1x1 ![0, 1] bcast_S32x64_S32x64x1x1_0_1 : (⟨S32x64, .f32⟩ : BufTy).Contents (Elt F) → (⟨S32x64x1x1, .f32⟩ : BufTy).Contents (Elt F)),
    unary main_v83 main_v84 (broadcastInDim S32x64x96x96 ![0, 1, 2, 3] bcast_S32x64x1x1_S32x64x96x96_0_1_2_3 : (⟨S32x64x1x1, .f32⟩ : BufTy).Contents (Elt F) → (⟨S32x64x96x96, .f32⟩ : BufTy).Contents (Elt F)),
    binary main_arg0 main_v84 main_v85 (mulf : (⟨S32x64x96x96, .f32⟩ : BufTy).Contents (Elt F) → (⟨S32x64x96x96, .f32⟩ : BufTy).Contents (Elt F) → (⟨S32x64x96x96, .f32⟩ : BufTy).Contents (Elt F)) ]

/-- @main's 113 operations, in order. -/
abbrev ops : List (HloOp τ sig (Elt F)) :=
  segCov ++ segTr ++ segInit ++ segStep1 ++ segStep2 ++ segStep3 ++ segFin ++ segGate ++ segOut

set_option maxRecDepth 8192 in
set_option maxHeartbeats 4000000 in
/-- @main is that straight line: its two windows in order, the outlined functions unfolded at their calls. -/
theorem main_eq (c : Dev nD) : main (F := F) c = seq ops := by
  simp only [main, main_part0, main_part1, fn_trace.body, fn_where.body, fn_relu.body, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., binary_bufs_sub .., unary_bufs_sub .., nullary_bufs_sub .., unary_bufs_sub ..,
    binary_bufs_sub .., unary_bufs_sub .., binary_bufs_sub .., binary_bufs_sub .., nullary_bufs_sub .., unary_bufs_sub ..,
    binary_bufs_sub .., nullary_bufs_sub .., nullary_bufs_sub .., nullary_bufs_sub .., unary_bufs_sub .., binary_bufs_sub ..,
    binary_bufs_sub .., unary_bufs_sub .., nullary_bufs_sub .., unary_bufs_sub .., binary_bufs_sub .., nullary_bufs_sub ..,
    nullary_bufs_sub .., nullary_bufs_sub .., unary_bufs_sub .., binary_bufs_sub .., binary_bufs_sub .., nullary_bufs_sub ..,
    unary_bufs_sub .., unary_bufs_sub .., ternary_bufs_sub .., nullary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., binary_bufs_sub .., binary_bufs_sub ..,
    unary_bufs_sub .., unary_bufs_sub .., binary_bufs_sub .., nullary_bufs_sub .., unary_bufs_sub .., binary_bufs_sub ..,
    binary_bufs_sub .., binary_bufs_sub .., binary_bufs_sub .., unary_bufs_sub .., unary_bufs_sub .., binary_bufs_sub ..,
    nullary_bufs_sub .., unary_bufs_sub .., binary_bufs_sub .., binary_bufs_sub .., binary_bufs_sub .., binary_bufs_sub ..,
    binary_bufs_sub .., unary_bufs_sub .., unary_bufs_sub .., binary_bufs_sub .., binary_bufs_sub .., nullary_bufs_sub ..,
    unary_bufs_sub .., binary_bufs_sub .., unary_bufs_sub .., unary_bufs_sub .., unary_bufs_sub .., binary_bufs_sub ..,
    nullary_bufs_sub .., binary_bufs_sub .., nullary_bufs_sub .., unary_bufs_sub .., binary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., unary_bufs_sub .., unary_bufs_sub .., binary_bufs_sub ..⟩

set_option maxRecDepth 8192 in
/-- Every weakly fair execution of @main terminates with each buffer at the fold of the operations over the launch
    contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ### What the covariance segment leaves, from any contents `W` -/

theorem cov_v9 (W : Valuation τ sig (Elt F)) :
    after segCov W (main_v9 : DevRef τ sig)
      = rCov (rXr (W (main_arg0 : DevRef τ sig))) := by
  after_results
  unfold rCov rXr; rfl

theorem cov_v17 (W : Valuation τ sig (Elt F)) :
    after segCov W (main_v17 : DevRef τ sig)
      = rI3 := by
  after_results
  unfold rI3; rfl

theorem cov_arg0 (W : Valuation τ sig (Elt F)) :
    after segCov W (main_arg0 : DevRef τ sig) = W (main_arg0 : DevRef τ sig) := by
  after_results

theorem cov_arg1 (W : Valuation τ sig (Elt F)) :
    after segCov W (main_arg1 : DevRef τ sig) = W (main_arg1 : DevRef τ sig) := by
  after_results

theorem cov_arg2 (W : Valuation τ sig (Elt F)) :
    after segCov W (main_arg2 : DevRef τ sig) = W (main_arg2 : DevRef τ sig) := by
  after_results

theorem cov_arg3 (W : Valuation τ sig (Elt F)) :
    after segCov W (main_arg3 : DevRef τ sig) = W (main_arg3 : DevRef τ sig) := by
  after_results

theorem cov_arg4 (W : Valuation τ sig (Elt F)) :
    after segCov W (main_arg4 : DevRef τ sig) = W (main_arg4 : DevRef τ sig) := by
  after_results

/-! ### What the trace segment leaves, from any contents `W` -/

theorem tr_v18 (W : Valuation τ sig (Elt F)) :
    after segTr W (main_v18 : DevRef τ sig)
      = rTr (W (main_v9 : DevRef τ sig)) := by
  after_results
  unfold rTr; rfl

theorem tr_v9 (W : Valuation τ sig (Elt F)) :
    after segTr W (main_v9 : DevRef τ sig) = W (main_v9 : DevRef τ sig) := by
  after_results

theorem tr_v17 (W : Valuation τ sig (Elt F)) :
    after segTr W (main_v17 : DevRef τ sig) = W (main_v17 : DevRef τ sig) := by
  after_results

theorem tr_arg0 (W : Valuation τ sig (Elt F)) :
    after segTr W (main_arg0 : DevRef τ sig) = W (main_arg0 : DevRef τ sig) := by
  after_results

theorem tr_arg1 (W : Valuation τ sig (Elt F)) :
    after segTr W (main_arg1 : DevRef τ sig) = W (main_arg1 : DevRef τ sig) := by
  after_results

theorem tr_arg2 (W : Valuation τ sig (Elt F)) :
    after segTr W (main_arg2 : DevRef τ sig) = W (main_arg2 : DevRef τ sig) := by
  after_results

theorem tr_arg3 (W : Valuation τ sig (Elt F)) :
    after segTr W (main_arg3 : DevRef τ sig) = W (main_arg3 : DevRef τ sig) := by
  after_results

theorem tr_arg4 (W : Valuation τ sig (Elt F)) :
    after segTr W (main_arg4 : DevRef τ sig) = W (main_arg4 : DevRef τ sig) := by
  after_results

/-! ### What the normalisation segment leaves, from any contents `W` -/

theorem init_v27 (W : Valuation τ sig (Elt F)) :
    after segInit W (main_v27 : DevRef τ sig)
      = (rInit (W (main_v17 : DevRef τ sig)) (rA (W (main_v9 : DevRef τ sig)) (W (main_v18 : DevRef τ sig)))).1 := by
  after_results
  rfl

theorem init_v26 (W : Valuation τ sig (Elt F)) :
    after segInit W (main_v26 : DevRef τ sig)
      = (rInit (W (main_v17 : DevRef τ sig)) (rA (W (main_v9 : DevRef τ sig)) (W (main_v18 : DevRef τ sig)))).2 := by
  after_results
  rfl

theorem init_v17 (W : Valuation τ sig (Elt F)) :
    after segInit W (main_v17 : DevRef τ sig) = W (main_v17 : DevRef τ sig) := by
  after_results

theorem init_v18 (W : Valuation τ sig (Elt F)) :
    after segInit W (main_v18 : DevRef τ sig) = W (main_v18 : DevRef τ sig) := by
  after_results

theorem init_arg0 (W : Valuation τ sig (Elt F)) :
    after segInit W (main_arg0 : DevRef τ sig) = W (main_arg0 : DevRef τ sig) := by
  after_results

theorem init_arg1 (W : Valuation τ sig (Elt F)) :
    after segInit W (main_arg1 : DevRef τ sig) = W (main_arg1 : DevRef τ sig) := by
  after_results

theorem init_arg2 (W : Valuation τ sig (Elt F)) :
    after segInit W (main_arg2 : DevRef τ sig) = W (main_arg2 : DevRef τ sig) := by
  after_results

theorem init_arg3 (W : Valuation τ sig (Elt F)) :
    after segInit W (main_arg3 : DevRef τ sig) = W (main_arg3 : DevRef τ sig) := by
  after_results

theorem init_arg4 (W : Valuation τ sig (Elt F)) :
    after segInit W (main_arg4 : DevRef τ sig) = W (main_arg4 : DevRef τ sig) := by
  after_results

/-! ### What the first step leaves, from any contents `W` -/

theorem step1_v34 (W : Valuation τ sig (Elt F)) :
    after segStep1 W (main_v34 : DevRef τ sig)
      = (rStep (W (main_v17 : DevRef τ sig)) (W (main_v27 : DevRef τ sig), W (main_v26 : DevRef τ sig))).1 := by
  after_results
  rfl

theorem step1_v35 (W : Valuation τ sig (Elt F)) :
    after segStep1 W (main_v35 : DevRef τ sig)
      = (rStep (W (main_v17 : DevRef τ sig)) (W (main_v27 : DevRef τ sig), W (main_v26 : DevRef τ sig))).2 := by
  after_results
  rfl

theorem step1_v17 (W : Valuation τ sig (Elt F)) :
    after segStep1 W (main_v17 : DevRef τ sig) = W (main_v17 : DevRef τ sig) := by
  after_results

theorem step1_v18 (W : Valuation τ sig (Elt F)) :
    after segStep1 W (main_v18 : DevRef τ sig) = W (main_v18 : DevRef τ sig) := by
  after_results

theorem step1_arg0 (W : Valuation τ sig (Elt F)) :
    after segStep1 W (main_arg0 : DevRef τ sig) = W (main_arg0 : DevRef τ sig) := by
  after_results

theorem step1_arg1 (W : Valuation τ sig (Elt F)) :
    after segStep1 W (main_arg1 : DevRef τ sig) = W (main_arg1 : DevRef τ sig) := by
  after_results

theorem step1_arg2 (W : Valuation τ sig (Elt F)) :
    after segStep1 W (main_arg2 : DevRef τ sig) = W (main_arg2 : DevRef τ sig) := by
  after_results

theorem step1_arg3 (W : Valuation τ sig (Elt F)) :
    after segStep1 W (main_arg3 : DevRef τ sig) = W (main_arg3 : DevRef τ sig) := by
  after_results

theorem step1_arg4 (W : Valuation τ sig (Elt F)) :
    after segStep1 W (main_arg4 : DevRef τ sig) = W (main_arg4 : DevRef τ sig) := by
  after_results

/-! ### What the second step leaves, from any contents `W` -/

theorem step2_v42 (W : Valuation τ sig (Elt F)) :
    after segStep2 W (main_v42 : DevRef τ sig)
      = (rStep (W (main_v17 : DevRef τ sig)) (W (main_v34 : DevRef τ sig), W (main_v35 : DevRef τ sig))).1 := by
  after_results
  rfl

theorem step2_v43 (W : Valuation τ sig (Elt F)) :
    after segStep2 W (main_v43 : DevRef τ sig)
      = (rStep (W (main_v17 : DevRef τ sig)) (W (main_v34 : DevRef τ sig), W (main_v35 : DevRef τ sig))).2 := by
  after_results
  rfl

theorem step2_v17 (W : Valuation τ sig (Elt F)) :
    after segStep2 W (main_v17 : DevRef τ sig) = W (main_v17 : DevRef τ sig) := by
  after_results

theorem step2_v18 (W : Valuation τ sig (Elt F)) :
    after segStep2 W (main_v18 : DevRef τ sig) = W (main_v18 : DevRef τ sig) := by
  after_results

theorem step2_arg0 (W : Valuation τ sig (Elt F)) :
    after segStep2 W (main_arg0 : DevRef τ sig) = W (main_arg0 : DevRef τ sig) := by
  after_results

theorem step2_arg1 (W : Valuation τ sig (Elt F)) :
    after segStep2 W (main_arg1 : DevRef τ sig) = W (main_arg1 : DevRef τ sig) := by
  after_results

theorem step2_arg2 (W : Valuation τ sig (Elt F)) :
    after segStep2 W (main_arg2 : DevRef τ sig) = W (main_arg2 : DevRef τ sig) := by
  after_results

theorem step2_arg3 (W : Valuation τ sig (Elt F)) :
    after segStep2 W (main_arg3 : DevRef τ sig) = W (main_arg3 : DevRef τ sig) := by
  after_results

theorem step2_arg4 (W : Valuation τ sig (Elt F)) :
    after segStep2 W (main_arg4 : DevRef τ sig) = W (main_arg4 : DevRef τ sig) := by
  after_results

/-! ### What the third step leaves, from any contents `W` -/

theorem step3_v50 (W : Valuation τ sig (Elt F)) :
    after segStep3 W (main_v50 : DevRef τ sig)
      = (rStep (W (main_v17 : DevRef τ sig)) (W (main_v42 : DevRef τ sig), W (main_v43 : DevRef τ sig))).1 := by
  after_results
  rfl

theorem step3_v51 (W : Valuation τ sig (Elt F)) :
    after segStep3 W (main_v51 : DevRef τ sig)
      = (rStep (W (main_v17 : DevRef τ sig)) (W (main_v42 : DevRef τ sig), W (main_v43 : DevRef τ sig))).2 := by
  after_results
  rfl

theorem step3_v17 (W : Valuation τ sig (Elt F)) :
    after segStep3 W (main_v17 : DevRef τ sig) = W (main_v17 : DevRef τ sig) := by
  after_results

theorem step3_v18 (W : Valuation τ sig (Elt F)) :
    after segStep3 W (main_v18 : DevRef τ sig) = W (main_v18 : DevRef τ sig) := by
  after_results

theorem step3_arg0 (W : Valuation τ sig (Elt F)) :
    after segStep3 W (main_arg0 : DevRef τ sig) = W (main_arg0 : DevRef τ sig) := by
  after_results

theorem step3_arg1 (W : Valuation τ sig (Elt F)) :
    after segStep3 W (main_arg1 : DevRef τ sig) = W (main_arg1 : DevRef τ sig) := by
  after_results

theorem step3_arg2 (W : Valuation τ sig (Elt F)) :
    after segStep3 W (main_arg2 : DevRef τ sig) = W (main_arg2 : DevRef τ sig) := by
  after_results

theorem step3_arg3 (W : Valuation τ sig (Elt F)) :
    after segStep3 W (main_arg3 : DevRef τ sig) = W (main_arg3 : DevRef τ sig) := by
  after_results

theorem step3_arg4 (W : Valuation τ sig (Elt F)) :
    after segStep3 W (main_arg4 : DevRef τ sig) = W (main_arg4 : DevRef τ sig) := by
  after_results

/-! ### What the final segment leaves, from any contents `W` -/

theorem fin_v62 (W : Valuation τ sig (Elt F)) :
    after segFin W (main_v62 : DevRef τ sig)
      = rFin (W (main_v17 : DevRef τ sig)) (W (main_v18 : DevRef τ sig)) (W (main_v50 : DevRef τ sig), W (main_v51 : DevRef τ sig)) := by
  after_results
  rfl

theorem fin_arg0 (W : Valuation τ sig (Elt F)) :
    after segFin W (main_arg0 : DevRef τ sig) = W (main_arg0 : DevRef τ sig) := by
  after_results

theorem fin_arg1 (W : Valuation τ sig (Elt F)) :
    after segFin W (main_arg1 : DevRef τ sig) = W (main_arg1 : DevRef τ sig) := by
  after_results

theorem fin_arg2 (W : Valuation τ sig (Elt F)) :
    after segFin W (main_arg2 : DevRef τ sig) = W (main_arg2 : DevRef τ sig) := by
  after_results

theorem fin_arg3 (W : Valuation τ sig (Elt F)) :
    after segFin W (main_arg3 : DevRef τ sig) = W (main_arg3 : DevRef τ sig) := by
  after_results

theorem fin_arg4 (W : Valuation τ sig (Elt F)) :
    after segFin W (main_arg4 : DevRef τ sig) = W (main_arg4 : DevRef τ sig) := by
  after_results

/-! ### What the gate segment leaves, from any contents `W` -/

set_option maxHeartbeats 1600000 in
theorem gate_v82 (W : Valuation τ sig (Elt F)) :
    after segGate W (main_v82 : DevRef τ sig)
      = rGate (W (main_v62 : DevRef τ sig)) (W (main_arg1 : DevRef τ sig)) (W (main_arg2 : DevRef τ sig)) (W (main_arg3 : DevRef τ sig)) (W (main_arg4 : DevRef τ sig)) := by
  after_results
  unfold rGate; rfl

theorem gate_arg0 (W : Valuation τ sig (Elt F)) :
    after segGate W (main_arg0 : DevRef τ sig) = W (main_arg0 : DevRef τ sig) := by
  after_results

theorem gate_arg1 (W : Valuation τ sig (Elt F)) :
    after segGate W (main_arg1 : DevRef τ sig) = W (main_arg1 : DevRef τ sig) := by
  after_results

theorem gate_arg2 (W : Valuation τ sig (Elt F)) :
    after segGate W (main_arg2 : DevRef τ sig) = W (main_arg2 : DevRef τ sig) := by
  after_results

theorem gate_arg3 (W : Valuation τ sig (Elt F)) :
    after segGate W (main_arg3 : DevRef τ sig) = W (main_arg3 : DevRef τ sig) := by
  after_results

theorem gate_arg4 (W : Valuation τ sig (Elt F)) :
    after segGate W (main_arg4 : DevRef τ sig) = W (main_arg4 : DevRef τ sig) := by
  after_results

/-! ### What the output segment leaves, from any contents `W` -/

theorem out_v85 (W : Valuation τ sig (Elt F)) :
    after segOut W (main_v85 : DevRef τ sig)
      = rOut (W (main_arg0 : DevRef τ sig)) (W (main_v82 : DevRef τ sig)) := by
  after_results
  rfl

theorem out_arg0 (W : Valuation τ sig (Elt F)) :
    after segOut W (main_arg0 : DevRef τ sig) = W (main_arg0 : DevRef τ sig) := by
  after_results

theorem out_arg1 (W : Valuation τ sig (Elt F)) :
    after segOut W (main_arg1 : DevRef τ sig) = W (main_arg1 : DevRef τ sig) := by
  after_results

theorem out_arg2 (W : Valuation τ sig (Elt F)) :
    after segOut W (main_arg2 : DevRef τ sig) = W (main_arg2 : DevRef τ sig) := by
  after_results

theorem out_arg3 (W : Valuation τ sig (Elt F)) :
    after segOut W (main_arg3 : DevRef τ sig) = W (main_arg3 : DevRef τ sig) := by
  after_results

theorem out_arg4 (W : Valuation τ sig (Elt F)) :
    after segOut W (main_arg4 : DevRef τ sig) = W (main_arg4 : DevRef τ sig) := by
  after_results

/-! ## The fold, stage by stage

The fold over the whole list is the nine segments' folds composed; reading it from the last segment back,
each buffer still to be read is either the segment's stage function of the contents before it, or unchanged. -/

/-- The fold of the whole list at the result buffer is the reference function of the arguments' contents. -/
theorem result (V : Valuation τ sig (Elt F)) :
    after ops V (main_v85 : DevRef τ sig)
      = refOut (V (main_arg0 : DevRef τ sig)) (V (main_arg1 : DevRef τ sig)) (V (main_arg2 : DevRef τ sig))
          (V (main_arg3 : DevRef τ sig)) (V (main_arg4 : DevRef τ sig)) := by
  simp only [ops, after_append]
  -- the output from the gate, the gate from the normalised square root
  rw [out_v85]
  rw [gate_arg0, gate_v82]
  rw [fin_arg0, fin_arg1, fin_arg2, fin_arg3, fin_arg4, fin_v62]
  -- the three steps of the iteration, last first
  rw [step3_arg0, step3_arg1, step3_arg2, step3_arg3, step3_arg4, step3_v17, step3_v18, step3_v50, step3_v51]
  rw [step2_arg0, step2_arg1, step2_arg2, step2_arg3, step2_arg4, step2_v17, step2_v18, step2_v42, step2_v43]
  rw [step1_arg0, step1_arg1, step1_arg2, step1_arg3, step1_arg4, step1_v17, step1_v18, step1_v34, step1_v35]
  -- the first pair, the trace, the covariance
  rw [init_arg0, init_arg1, init_arg2, init_arg3, init_arg4, init_v17, init_v18, init_v27, init_v26]
  rw [tr_arg0, tr_arg1, tr_arg2, tr_arg3, tr_arg4, tr_v17, tr_v18, tr_v9]
  rw [cov_arg0, cov_arg1, cov_arg2, cov_arg3, cov_arg4, cov_v17, cov_v9]
  -- a pair of projections of one pair is that pair
  simp only [Prod.mk.eta]
  rfl

/-- No operation writes argument 0: the fold leaves it. -/
theorem arg0_eq (V : Valuation τ sig (Elt F)) :
    after ops V (main_arg0 : DevRef τ sig) = V (main_arg0 : DevRef τ sig) := by
  simp only [ops, after_append]
  rw [out_arg0, gate_arg0, fin_arg0, step3_arg0, step2_arg0, step1_arg0, init_arg0, tr_arg0, cov_arg0]

/-- No operation writes argument 1: the fold leaves it. -/
theorem arg1_eq (V : Valuation τ sig (Elt F)) :
    after ops V (main_arg1 : DevRef τ sig) = V (main_arg1 : DevRef τ sig) := by
  simp only [ops, after_append]
  rw [out_arg1, gate_arg1, fin_arg1, step3_arg1, step2_arg1, step1_arg1, init_arg1, tr_arg1, cov_arg1]

/-- No operation writes argument 2: the fold leaves it. -/
theorem arg2_eq (V : Valuation τ sig (Elt F)) :
    after ops V (main_arg2 : DevRef τ sig) = V (main_arg2 : DevRef τ sig) := by
  simp only [ops, after_append]
  rw [out_arg2, gate_arg2, fin_arg2, step3_arg2, step2_arg2, step1_arg2, init_arg2, tr_arg2, cov_arg2]

/-- No operation writes argument 3: the fold leaves it. -/
theorem arg3_eq (V : Valuation τ sig (Elt F)) :
    after ops V (main_arg3 : DevRef τ sig) = V (main_arg3 : DevRef τ sig) := by
  simp only [ops, after_append]
  rw [out_arg3, gate_arg3, fin_arg3, step3_arg3, step2_arg3, step1_arg3, init_arg3, tr_arg3, cov_arg3]

/-- No operation writes argument 4: the fold leaves it. -/
theorem arg4_eq (V : Valuation τ sig (Elt F)) :
    after ops V (main_arg4 : DevRef τ sig) = V (main_arg4 : DevRef τ sig) := by
  simp only [ops, after_append]
  rw [out_arg4, gate_arg4, fin_arg4, step3_arg4, step2_arg4, step1_arg4, init_arg4, tr_arg4, cov_arg4]

/-! ## The run -/

/-- On every device, for any float values, from any memory with zero counters: every weakly fair execution of
    @main terminates with the result buffer at the reference function of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v85).trans (result (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_ops m ρ)

end Cert.ReferenceIdeal.HandRun

end
-- ==== Proof.LibBatchedProducts.lean ====
/-
  Batched products at exact arithmetic, read at an entry.

  For a stack of B matrices the product "b i k , b k j → b i j" (each matrix of the left stack times the matrix of the
  right stack with the same batch coordinate) and the product "b c m , b d m → b c d" (each matrix times the TRANSPOSE
  of its partner: both factors contracted on their last axis) are, at an entry, the sum over the contracted
  coordinate of the products of the two factors' entries.  Stated for ANY contraction record between three-axis
  shapes whose operand indices are the ones named in the hypotheses, so that the TensorCore product into a zero
  accumulator and the host product are both instances; the extents are arbitrary.
-/
import Idealize.ShloMosaic.Lib.ValueIdx
import Idealize.ShloMosaic.PureOps.Ideal.Laws

noncomputable section

namespace LibBatchedProducts

open Idealize.ShloMosaic Idealize.ShloMosaic.ValueIdx

/-- The contraction "b i k , b k j → b i j" as a sum over the middle coordinate. -/
theorem sum_nn {B M K N : ℕ} (D : DotDims ⟨3, ![B, M, K]⟩ ⟨3, ![B, K, N]⟩ ⟨3, ![B, M, N]⟩)
    (hr : D.contr.rank = 1) (hs : D.contr.size ⟨0, by omega⟩ = K)
    (hl0 : ∀ j k, (D.lhsIdx j k 0).val = (j 0).val) (hl1 : ∀ j k, (D.lhsIdx j k 1).val = (j 1).val)
    (hl2 : ∀ j k, (D.lhsIdx j k 2).val = (k ⟨0, by omega⟩).val)
    (hr0 : ∀ j k, (D.rhsIdx j k 0).val = (j 0).val) (hr1 : ∀ j k, (D.rhsIdx j k 1).val = (k ⟨0, by omega⟩).val)
    (hr2 : ∀ j k, (D.rhsIdx j k 2).val = (j 2).val)
    (l : (⟨3, ![B, M, K]⟩ : Shape).Idx → EReal) (r : (⟨3, ![B, K, N]⟩ : Shape).Idx → EReal)
    (j : (⟨3, ![B, M, N]⟩ : Shape).Idx) :
    ∑ k : D.contr.Idx, l (D.lhsIdx j k) * r (D.rhsIdx j k)
      = ∑ k : Fin K, l (ix3 (n0 := B) (n1 := M) (n2 := K) (j 0) (j 1) k) * r (ix3 (n0 := B) (n1 := K) (n2 := N) (j 0) k (j 2)) := by
  rw [← Equiv.sum_comp (contrEquiv1 D K hr hs).symm]
  refine Finset.sum_congr rfl fun k _ => ?_
  have hk := contrEquiv1_symm_val D K hr hs k
  have e1 : D.lhsIdx j ((contrEquiv1 D K hr hs).symm k) = ix3 (n0 := B) (n1 := M) (n2 := K) (j 0) (j 1) k :=
    funext fun a => Fin.ext (by
      match a with
      | ⟨0, _⟩ => exact hl0 _ _
      | ⟨1, _⟩ => exact hl1 _ _
      | ⟨2, _⟩ => exact (hl2 _ _).trans hk)
  have e2 : D.rhsIdx j ((contrEquiv1 D K hr hs).symm k) = ix3 (n0 := B) (n1 := K) (n2 := N) (j 0) k (j 2) :=
    funext fun a => Fin.ext (by
      match a with
      | ⟨0, _⟩ => exact hr0 _ _
      | ⟨1, _⟩ => exact (hr1 _ _).trans hk
      | ⟨2, _⟩ => exact hr2 _ _)
  rw [e1, e2]

/-- The contraction "b c m , b d m → b c d" (the right factor transposed) as a sum over the last coordinate. -/
theorem sum_nt {B M N K : ℕ} (D : DotDims ⟨3, ![B, M, K]⟩ ⟨3, ![B, N, K]⟩ ⟨3, ![B, M, N]⟩)
    (hr : D.contr.rank = 1) (hs : D.contr.size ⟨0, by omega⟩ = K)
    (hl0 : ∀ j k, (D.lhsIdx j k 0).val = (j 0).val) (hl1 : ∀ j k, (D.lhsIdx j k 1).val = (j 1).val)
    (hl2 : ∀ j k, (D.lhsIdx j k 2).val = (k ⟨0, by omega⟩).val)
    (hr0 : ∀ j k, (D.rhsIdx j k 0).val = (j 0).val) (hr1 : ∀ j k, (D.rhsIdx j k 1).val = (j 2).val)
    (hr2 : ∀ j k, (D.rhsIdx j k 2).val = (k ⟨0, by omega⟩).val)
    (l : (⟨3, ![B, M, K]⟩ : Shape).Idx → EReal) (r : (⟨3, ![B, N, K]⟩ : Shape).Idx → EReal)
    (j : (⟨3, ![B, M, N]⟩ : Shape).Idx) :
    ∑ k : D.contr.Idx, l (D.lhsIdx j k) * r (D.rhsIdx j k)
      = ∑ k : Fin K, l (ix3 (n0 := B) (n1 := M) (n2 := K) (j 0) (j 1) k) * r (ix3 (n0 := B) (n1 := N) (n2 := K) (j 0) (j 2) k) := by
  rw [← Equiv.sum_comp (contrEquiv1 D K hr hs).symm]
  refine Finset.sum_congr rfl fun k _ => ?_
  have hk := contrEquiv1_symm_val D K hr hs k
  have e1 : D.lhsIdx j ((contrEquiv1 D K hr hs).symm k) = ix3 (n0 := B) (n1 := M) (n2 := K) (j 0) (j 1) k :=
    funext fun a => Fin.ext (by
      match a with
      | ⟨0, _⟩ => exact hl0 _ _
      | ⟨1, _⟩ => exact hl1 _ _
      | ⟨2, _⟩ => exact (hl2 _ _).trans hk)
  have e2 : D.rhsIdx j ((contrEquiv1 D K hr hs).symm k) = ix3 (n0 := B) (n1 := N) (n2 := K) (j 0) (j 2) k :=
    funext fun a => Fin.ext (by
      match a with
      | ⟨0, _⟩ => exact hr0 _ _
      | ⟨1, _⟩ => exact hr1 _ _
      | ⟨2, _⟩ => exact (hr2 _ _).trans hk)
  rw [e1, e2]

end LibBatchedProducts

end
-- ==== Proof.LibReduceTwoAxes.lean ====
/-
  A reduction of a rank-3 array over its last two axes, read at an index.

  The host's reductions are stated over the set of source indices that drop to a given result index. For a
  source of shape [A, B, C] reduced over axes 1 and 2 into [A], the indices that drop to `a` are exactly the
  (a, i, j), so a sum over that set is the double sum over `i` and `j`. This holds in any commutative monoid,
  hence both for the exact float sum on the extended reals and for the wrapping integer sum on 32-bit words.
-/
import Idealize.ShloMosaic.PureOps.Reduce
import Idealize.ShloMosaic.PureOps.Ideal.Laws
import Idealize.ShloMosaic.Lib.ValueIdx
import Mathlib.Data.BitVec

noncomputable section

namespace LibReduceTwoAxes

open Idealize.ShloMosaic Idealize.ShloMosaic.ValueIdx

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {A B C : Nat} : (⟨3, ![A, B, C]⟩ : Shape).Idx ≃ Fin A × Fin B × Fin C where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {A B C : Nat} (f : (⟨3, ![A, B, C]⟩ : Shape).Idx → M) :
    ∑ i, f i = ∑ a : Fin A, ∑ b : Fin B, ∑ c : Fin C, f (ix3 a b c) := by
  rw [← Equiv.sum_comp (idxEquiv3 (A := A) (B := B) (C := C)).symm f, Fintype.sum_prod_type]
  refine Finset.sum_congr rfl fun a _ => ?_
  rw [Fintype.sum_prod_type]
  rfl

/-- Dropping axes 1 and 2 of (a', i, j) leaves a'. -/
theorem drop12_eq_iff {A B C : Nat} (h : (⟨3, ![A, B, C]⟩ : Shape).ReducesTo [1, 2] ⟨1, ![A]⟩)
    (a a' : Fin A) (i : Fin B) (j : Fin C) : h.drop (ix3 a' i j) = ix1 a ↔ a' = a := by
  have hv : ((h.drop (ix3 a' i j)) 0 : Nat) = a'.val := rfl
  constructor
  · intro e
    apply Fin.ext
    rw [← hv, e]
    rfl
  · rintro rfl
    funext d
    match d with
    | ⟨0, _⟩ => exact Fin.ext hv

/-- A sum over the source indices that drop to `a` is the double sum over the two reduced coordinates. -/
theorem sum_filter_drop12 {M : Type*} [AddCommMonoid M] {A B C : Nat}
    (h : (⟨3, ![A, B, C]⟩ : Shape).ReducesTo [1, 2] ⟨1, ![A]⟩) (f : (⟨3, ![A, B, C]⟩ : Shape).Idx → M) (a : Fin A) :
    ∑ idx ∈ Finset.univ.filter (fun idx => h.drop idx = ix1 a), f idx = ∑ i : Fin B, ∑ j : Fin C, f (ix3 a i j) := by
  rw [Finset.sum_filter, sum_idx3]
  simp only [drop12_eq_iff]
  rw [Finset.sum_eq_single a]
  · simp
  · intro b _ hb
    simp [hb]
  · intro ha
    exact absurd (Finset.mem_univ a) ha

/-- The host's exact float sum over axes 1 and 2, read at `a`: the initial value plus the double sum. -/
theorem hostReduceAdd_axes12 {A B C : Nat} (h : (⟨3, ![A, B, C]⟩ : Shape).ReducesTo [1, 2] ⟨1, ![A]⟩)
    (x : (⟨3, ![A, B, C]⟩ : Shape).Idx → EReal) (init : EReal) (a : Fin A) :
    Ideal.hostReduceAdd h x init (ix1 a) = init + ∑ i : Fin B, ∑ j : Fin C, x (ix3 a i j) := by
  unfold Ideal.hostReduceAdd
  rw [sum_filter_drop12]

/-- A fold of the wrapping integer addition over a finite set is the initial word plus the sum of the words. -/
theorem fold_addi_eq_sum {ι : Type*} {w : Nat} (S : Finset ι) (init : BitVec w) (x : ι → BitVec w) :
    S.fold IntOp.addi init x = init + ∑ i ∈ S, x i := by
  induction S using Finset.cons_induction with
  | empty => simp
  | cons a S ha ih =>
    rw [Finset.fold_cons, Finset.sum_cons, ih]
    show x a + (init + _) = init + (x a + _)
    exact add_left_comm _ _ _

/-- The host's integer sum over axes 1 and 2, read at `a`: the initial word plus the double sum of words. -/
theorem hostReduce_addi_axes12 {A B C w : Nat} {u : Shape} (h : (⟨3, ![A, B, C]⟩ : Shape).ReducesTo [1, 2] ⟨1, ![A]⟩)
    (x : (⟨3, ![A, B, C]⟩ : Shape).Idx → BitVec w) (init : u.Idx → BitVec w) (hu : 0 < u.numel) (a : Fin A) :
    Host.reduce IntOp.addi x init h hu (ix1 a)
      = init (Shape.Idx.first hu) + ∑ i : Fin B, ∑ j : Fin C, x (ix3 a i j) := by
  rw [Host.reduce_eq_fold, fold_addi_eq_sum, sum_filter_drop12]

end LibReduceTwoAxes

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.KernelOps.lean ====
/-
  The kernel body's operations on a block of four batch elements, each read at an entry: the sums over one or two
  axes, the two batched products (rows against rows for the covariance; matrix times matrix for the iteration), and
  the two small products of the perceptron.
-/
import proofs.«179594_j15358803050800_2_alg».proof.Proof.Gen.KernelIdeal.Skeleton
import proofs.«179594_j15358803050800_2_alg».proof.Proof.LibBatchedProducts
import proofs.«179594_j15358803050800_2_alg».proof.Proof.LibReduceTwoAxes
import proofs.«179594_j15358803050800_2_alg».proof.Proof.LibMatmulIdx
import Idealize.ShloMosaic.Lib.ValueIdx
import Idealize.ShloMosaic.PureOps.Ideal.Laws

noncomputable section

namespace Cert.KernelIdeal.Read

open Cert.KernelIdeal Cert.KernelIdeal.Gen Idealize.ShloMosaic Idealize.ShloMosaic.ValueIdx

/-- A kernel's float sum, at exact arithmetic, is the sum over the source entries that the reduction sends to the
    result entry (whatever the axes; by unfolding). -/
theorem multiReduction_add_ideal {s t : Shape} {axes : List (Fin s.rank)} (v : FVec Ideal s .f32)
    (h : s.Reduces axes t) (hφ : FKind.Formats .f32) (hacc : (0x00000000#32 : BitVec 32) = 0x00000000#32) :
    multiReduction (F := Ideal) .add axes t v 0x00000000#32 h hφ hacc = Ideal.reduceAdd h v := rfl

/-- The sum over the 9216 positions of a block [4, 64, 9216], at (b, c). -/
theorem sumPos_apply (v : S4x64x9216.Idx → EReal) (h : S4x64x9216.Reduces [2] S4x64) (b : Fin 4) (c : Fin 64) :
    Ideal.reduceAdd h v (ix2 b c) = ∑ q : Fin 9216, v (ix3 b c q) :=
  (Ideal.reduceAdd_single h v (ix2 b c)).trans
    (Finset.sum_congr rfl fun q _ => congrArg v (funext fun a => Fin.ext (by
      match a with
      | ⟨0, _⟩ => rfl
      | ⟨1, _⟩ => rfl
      | ⟨2, _⟩ => rfl)))

/-- The sum over the first matrix axis of [4, 64, 64], at (b, j). -/
theorem sumRows_apply (v : S4x64x64.Idx → EReal) (h : S4x64x64.Reduces [1] S4x64) (b : Fin 4) (j : Fin 64) :
    Ideal.reduceAdd h v (ix2 b j) = ∑ i : Fin 64, v (ix3 b i j) :=
  (Ideal.reduceAdd_single h v (ix2 b j)).trans
    (Finset.sum_congr rfl fun i _ => congrArg v (funext fun a => Fin.ext (by
      match a with
      | ⟨0, _⟩ => rfl
      | ⟨1, _⟩ => rfl
      | ⟨2, _⟩ => rfl)))

/-- The sum over both matrix axes of [4, 64, 64], at b. -/
theorem sumMat_apply (v : S4x64x64.Idx → EReal) (h : S4x64x64.Reduces [1, 2] S4) (b : Fin 4) :
    Ideal.reduceAdd h v (ix1 b) = ∑ i : Fin 64, ∑ j : Fin 64, v (ix3 b i j) := by
  have h' : S4x64x64.ReducesTo [1, 2] S4 := by decide
  unfold Ideal.reduceAdd
  rw [← Shape.ReducesTo.drop_eq_drop h' h]
  exact LibReduceTwoAxes.sum_filter_drop12 h' v b

/-- The product "b c m , b d m → b c d" of a block with itself or another, at (b, c, d). -/
theorem gram_apply (l r : FVec Ideal S4x64x9216 .f32) (b : Fin 4) (c d : Fin 64) :
    matmul (F := Ideal) dot_S4x64x9216_S4x64x9216_S4x64x64_2_2_1_1_0_0 none l r (constant S4x64x64 .f32 0x00000000#32) (ix3 b c d)
      = ∑ q : Fin 9216, l (ix3 b c q) * r (ix3 b d q) :=
  (Ideal.matmul_constant_zero_apply _ none l r _).trans
    (LibBatchedProducts.sum_nt dot_S4x64x9216_S4x64x9216_S4x64x64_2_2_1_1_0_0 rfl rfl
      (fun _ _ => rfl) (fun _ _ => rfl) (fun _ _ => rfl) (fun _ _ => rfl) (fun _ _ => rfl) (fun _ _ => rfl) l r (ix3 b c d))

/-- The batched matrix product, at (b, i, j). -/
theorem mm_apply (l r : FVec Ideal S4x64x64 .f32) (b : Fin 4) (i j : Fin 64) :
    matmul (F := Ideal) dot_S4x64x64_S4x64x64_S4x64x64_2_1_1_2_0_0 none l r (constant S4x64x64 .f32 0x00000000#32) (ix3 b i j)
      = ∑ k : Fin 64, l (ix3 b i k) * r (ix3 b k j) :=
  (Ideal.matmul_constant_zero_apply _ none l r _).trans
    (LibBatchedProducts.sum_nn dot_S4x64x64_S4x64x64_S4x64x64_2_1_1_2_0_0 rfl rfl
      (fun _ _ => rfl) (fun _ _ => rfl) (fun _ _ => rfl) (fun _ _ => rfl) (fun _ _ => rfl) (fun _ _ => rfl) l r (ix3 b i j))

/-- The first perceptron product [4, 64] · [64, 8], at (b, r). -/
theorem fc1_apply (l : FVec Ideal S4x64 .f32) (r : FVec Ideal S64x8 .f32) (b : Fin 4) (k : Fin 8) :
    matmul (F := Ideal) dot_S4x64_S64x8_S4x8_1_0_0_1_n_n none l r (constant S4x8 .f32 0x00000000#32) (ix2 b k)
      = ∑ c : Fin 64, l (ix2 b c) * r (ix2 c k) :=
  LibMatmulIdx.matmul2_apply dot_S4x64_S64x8_S4x8_1_0_0_1_n_n rfl rfl
    (fun _ _ => rfl) (fun _ _ => rfl) (fun _ _ => rfl) (fun _ _ => rfl) none l r (ix2 b k)

/-- The second perceptron product [4, 8] · [8, 64], at (b, c). -/
theorem fc2_apply (l : FVec Ideal S4x8 .f32) (r : FVec Ideal S8x64 .f32) (b : Fin 4) (c : Fin 64) :
    matmul (F := Ideal) dot_S4x8_S8x64_S4x64_1_0_0_1_n_n none l r (constant S4x64 .f32 0x00000000#32) (ix2 b c)
      = ∑ k : Fin 8, l (ix2 b k) * r (ix2 k c) :=
  LibMatmulIdx.matmul2_apply dot_S4x8_S8x64_S4x64_1_0_0_1_n_n rfl rfl
    (fun _ _ => rfl) (fun _ _ => rfl) (fun _ _ => rfl) (fun _ _ => rfl) none l r (ix2 b c)

end Cert.KernelIdeal.Read

end
-- ==== Proof.Spec.lean ====
/-
  Second-order channel attention, as mathematics on the extended reals.

  For one batch element, X is a 64 × 9216 matrix (64 channels, 9216 = 96·96 positions).
    • The channel covariance:  C = (X − mean X)(X − mean X)ᵀ / 9216, a 64 × 64 matrix (the mean over positions).
    • Its trace t = Σ_i C_ii, written as the sum over all (i, j) of C_ij times the identity's entry.
    • A = C / t, and the coupled Newton–Schulz iteration for the square root of A:
        Z₀ = ½(3I − A),  Y₀ = A·Z₀;    T = ½(3I − Z)·Y,  Y ← Y·T,  Z ← T·Z   (three times);
      then  S = ½ · Y·(3I − Z·Y) · √t,  the square root of C.
    • The gate: the column means of S (the mean over the first matrix axis), through a two-layer perceptron
      64 → 8 → 64 with a ReLU between, then the logistic function.
    • The result scales channel c of X by the gate's entry c.
  Every function below carries a batch coordinate b of an ARBITRARY index type and treats it pointwise, so
  restricting the batch to a sub-range (a block of four batch elements out of thirty-two) commutes with
  everything here by unfolding alone (`gateOf_comp`).

  Float constants are kept as the values of their binary words (9216, 3, ½, 64, 0); nothing here evaluates one.
  The identity matrix's entry is the number of the bit "row index = column index", as both programs compute it.
-/
import Idealize.ShloMosaic.PureOps.Ideal

noncomputable section

namespace Soca

open Idealize.ShloMosaic

variable {ι : Type}

/-- A float constant: the extended real its binary word denotes. -/
abbrev W (b : BitVec 32) : EReal := Ideal.ofBits .f32 b

/-- The bit "i = j" as the two programs compute it: the comparison of the two indices as 32-bit words. -/
def eyeBit (i j : Fin 64) : BitVec 1 := IntOp.cmpi .eq (BitVec.ofNat 32 i.val) (BitVec.ofNat 32 j.val)

/-- The identity matrix's entry: that bit as a number. -/
def eye (i j : Fin 64) : EReal := (((eyeBit i j).toNat : ℝ) : EReal)

/-- The mean of channel c over the 9216 positions. -/
def mean (X : ι → Fin 64 → Fin 9216 → EReal) (b : ι) (c : Fin 64) : EReal :=
  Ideal.div (∑ q, X b c q) (W 0x46100000#32)

/-- The centred input. -/
def center (X : ι → Fin 64 → Fin 9216 → EReal) (b : ι) (c : Fin 64) (q : Fin 9216) : EReal := X b c q - mean X b c

/-- The channel covariance. -/
def cov (X : ι → Fin 64 → Fin 9216 → EReal) (b : ι) (c d : Fin 64) : EReal :=
  Ideal.div (∑ q, center X b c q * center X b d q) (W 0x46100000#32)

/-- The trace, as the sum of the matrix masked to its diagonal. -/
def tr (C : ι → Fin 64 → Fin 64 → EReal) (b : ι) : EReal := ∑ i, ∑ j, C b i j * eye i j

/-- Each matrix divided by its batch element's number. -/
def scale (C : ι → Fin 64 → Fin 64 → EReal) (t : ι → EReal) (b : ι) (i j : Fin 64) : EReal := Ideal.div (C b i j) (t b)

/-- 3I − M. -/
def sub3 (M : ι → Fin 64 → Fin 64 → EReal) (b : ι) (i j : Fin 64) : EReal := W 0x40400000#32 * eye i j - M b i j

/-- ½(3I − M). -/
def half (M : ι → Fin 64 → Fin 64 → EReal) (b : ι) (i j : Fin 64) : EReal := W 0x3F000000#32 * sub3 M b i j

/-- The batched matrix product. -/
def mm (A B : ι → Fin 64 → Fin 64 → EReal) (b : ι) (i j : Fin 64) : EReal := ∑ k, A b i k * B b k j

/-- The iteration's first pair (Y₀, Z₀). -/
def init (A : ι → Fin 64 → Fin 64 → EReal) : (ι → Fin 64 → Fin 64 → EReal) × (ι → Fin 64 → Fin 64 → EReal) :=
  (mm A (half A), half A)

/-- One step (Y, Z) ↦ (Y·T, T·Z), T = ½(3I − Z)·Y. -/
def step (p : (ι → Fin 64 → Fin 64 → EReal) × (ι → Fin 64 → Fin 64 → EReal)) :
    (ι → Fin 64 → Fin 64 → EReal) × (ι → Fin 64 → Fin 64 → EReal) :=
  (mm p.1 (mm (half p.2) p.1), mm (mm (half p.2) p.1) p.2)

/-- The last half step, rescaled: ½ · Y·(3I − Z·Y) · √t. -/
def fin (t : ι → EReal) (p : (ι → Fin 64 → Fin 64 → EReal) × (ι → Fin 64 → Fin 64 → EReal)) (b : ι) (i j : Fin 64) : EReal :=
  W 0x3F000000#32 * mm p.1 (sub3 (mm p.2 p.1)) b i j * Ideal.sqrt (t b)

/-- The mean over the first matrix axis. -/
def colMean (S : ι → Fin 64 → Fin 64 → EReal) (b : ι) (j : Fin 64) : EReal := Ideal.div (∑ i, S b i j) (W 0x42800000#32)

/-- The hidden layer: ReLU (s·W₁ᵀ + b₁). -/
def hidden (s : ι → Fin 64 → EReal) (W1 : Fin 8 → Fin 64 → EReal) (B1 : Fin 8 → EReal) (b : ι) (r : Fin 8) : EReal :=
  max ((∑ c, s b c * W1 r c) + B1 r) (W 0x00000000#32)

/-- The gate: logistic (h·W₂ᵀ + b₂). -/
def gate (h : ι → Fin 8 → EReal) (W2 : Fin 64 → Fin 8 → EReal) (B2 : Fin 64 → EReal) (b : ι) (c : Fin 64) : EReal :=
  Ideal.logistic ((∑ r, h b r * W2 c r) + B2 c)

/-- The square root of the covariance, by the iteration. -/
def covSqrt (X : ι → Fin 64 → Fin 9216 → EReal) : ι → Fin 64 → Fin 64 → EReal :=
  fin (tr (cov X)) (step (step (step (init (scale (cov X) (tr (cov X)))))))

/-- The whole gate as a function of the input and the perceptron's weights. -/
def gateOf (X : ι → Fin 64 → Fin 9216 → EReal) (W1 : Fin 8 → Fin 64 → EReal) (B1 : Fin 8 → EReal)
    (W2 : Fin 64 → Fin 8 → EReal) (B2 : Fin 64 → EReal) : ι → Fin 64 → EReal :=
  gate (hidden (colMean (covSqrt X)) W1 B1) W2 B2

/-- Everything is pointwise in the batch coordinate: the gate of a re-indexed batch is the re-indexed gate. -/
theorem gateOf_comp {κ : Type} (f : κ → ι) (X : ι → Fin 64 → Fin 9216 → EReal) (W1 : Fin 8 → Fin 64 → EReal)
    (B1 : Fin 8 → EReal) (W2 : Fin 64 → Fin 8 → EReal) (B2 : Fin 64 → EReal) :
    gateOf (fun b => X (f b)) W1 B1 W2 B2 = fun b => gateOf X W1 B1 W2 B2 (f b) := rfl

/-- A number times the identity's entry is the number on the diagonal and the zero word's value off it. -/
theorem mul_eye (x : EReal) (i j : Fin 64) : x * eye i j = Scalar.select (eyeBit i j) x (W 0x00000000#32) := by
  unfold eye
  rcases BitVec.eq_zero_or_eq_one (eyeBit i j) with h | h
  · rw [h]
    show x * (((0 : ℕ) : ℝ) : EReal) = if (0#1 : BitVec 1) = 1#1 then x else Ideal.ofBits .f32 0x00000000#32
    rw [if_neg (by decide)]
    simp [Ideal.ofBits, Ideal.ieee]
  · rw [h]
    show x * (((1 : ℕ) : ℝ) : EReal) = if (1#1 : BitVec 1) = 1#1 then x else Ideal.ofBits .f32 0x00000000#32
    rw [if_pos rfl]
    simp

end Soca

end
-- ==== Proof.LibBatchLayouts.lean ====
/-
  Batched layouts read at an entry.

  A stack of n rows, matrices or numbers is moved between shapes that differ only by unit axes or by repeating
  entries: a row statistic [n, a] kept as a column [n, a, 1] and repeated along a new last axis [n, a, m]; one
  matrix [a, b] repeated over the batch [n, a, b]; one number per batch element [n] repeated over its matrix
  [n, 1, 1] → [n, a, b]; one number per (batch, channel) [n, a] repeated over two trailing axes [n, a, 1, 1] →
  [n, a, h, w]; a row [a] repeated over the batch [1, a] → [n, a].  Each is stated both for a TensorCore
  cast-then-broadcast and for the host's broadcast-in-dimensions, at an entry written by its coordinates; the
  extents are arbitrary.
-/
import Idealize.ShloMosaic.Lib.ValueIdx
import Idealize.ShloMosaic.Lib.Pipeline.Value

noncomputable section

namespace LibBatchLayouts

open Idealize.ShloMosaic Idealize.ShloMosaic.ValueIdx

variable {α : Type}

/-! ## TensorCore forms: shape casts that add unit axes, broadcasts that repeat along them -/

/-- [n, a] cast to [n, a, 1]: entry (b, c, u) is entry (b, c). -/
theorem shapeCast_na_na1_apply {n a : ℕ} (x : (⟨2, ![n, a]⟩ : Shape).Idx → α)
    (h : (⟨2, ![n, a]⟩ : Shape).ShapeCasts ⟨3, ![n, a, 1]⟩) (b : Fin n) (c : Fin a) (u : Fin 1) :
    shapeCast ⟨3, ![n, a, 1]⟩ x h (ix3 b c u) = x (ix2 b c) :=
  shapeCast_apply x h _ _ (by
    have hu : u.val = 0 := by omega
    rw [Shape.rowMajor_val_two, Shape.rowMajor_val_three]
    show b.val * a + c.val = (b.val * a + c.val) * 1 + u.val
    rw [hu, Nat.mul_one, Nat.add_zero])

/-- [n, a, 1] broadcast to [n, a, m]: entry (b, c, q) is entry (b, c, 0). -/
theorem broadcastTo_na1_nam_apply {n a m : ℕ} (x : (⟨3, ![n, a, 1]⟩ : Shape).Idx → α)
    (h : (⟨3, ![n, a, 1]⟩ : Shape).Broadcasts ⟨3, ![n, a, m]⟩) (b : Fin n) (c : Fin a) (q : Fin m) :
    broadcastTo ⟨3, ![n, a, m]⟩ x h (ix3 b c q) = x (ix3 b c (0 : Fin 1)) := by
  refine broadcastTo_apply x h (ix3 b c q) (ix3 b c (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl

/-- [1, a, b] broadcast to [n, a, b]: entry (p, i, j) is entry (0, i, j). -/
theorem broadcastTo_1ab_nab_apply {n a b : ℕ} (x : (⟨3, ![1, a, b]⟩ : Shape).Idx → α)
    (h : (⟨3, ![1, a, b]⟩ : Shape).Broadcasts ⟨3, ![n, a, b]⟩) (p : Fin n) (i : Fin a) (j : Fin b) :
    broadcastTo ⟨3, ![n, a, b]⟩ x h (ix3 p i j) = x (ix3 (0 : Fin 1) i j) := by
  refine broadcastTo_apply x h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- [n] cast to [n, 1, 1]: entry (b, u, v) is entry b. -/
theorem shapeCast_n_n11_apply {n : ℕ} (x : (⟨1, ![n]⟩ : Shape).Idx → α)
    (h : (⟨1, ![n]⟩ : Shape).ShapeCasts ⟨3, ![n, 1, 1]⟩) (b : Fin n) (u v : Fin 1) :
    shapeCast ⟨3, ![n, 1, 1]⟩ x h (ix3 b u v) = x (ix1 b) :=
  shapeCast_apply x h _ _ (by
    have hu : u.val = 0 := by omega
    have hv : v.val = 0 := by omega
    rw [Shape.rowMajor_val_one, Shape.rowMajor_val_three]
    show b.val = (b.val * 1 + u.val) * 1 + v.val
    omega)

/-- [n, 1, 1] broadcast to [n, a, b]: entry (p, i, j) is entry (p, 0, 0). -/
theorem broadcastTo_n11_nab_apply {n a b : ℕ} (x : (⟨3, ![n, 1, 1]⟩ : Shape).Idx → α)
    (h : (⟨3, ![n, 1, 1]⟩ : Shape).Broadcasts ⟨3, ![n, a, b]⟩) (p : Fin n) (i : Fin a) (j : Fin b) :
    broadcastTo ⟨3, ![n, a, b]⟩ x h (ix3 p i j) = x (ix3 p (0 : Fin 1) (0 : Fin 1)) := by
  refine broadcastTo_apply x h (ix3 p i j) (ix3 p (0 : Fin 1) (0 : Fin 1)) fun ax => ?_
  match ax with
  | ⟨0, _⟩ =>
    show p.val = if n = 1 then 0 else p.val
    split
    · have := p.isLt; omega
    · rfl
  | ⟨1, _⟩ => rfl
  | ⟨2, _⟩ => rfl

/-! ## Host forms: broadcast in dimensions -/

/-- [n, a] placed on axes 0, 1 of [n, a, 1]. -/
theorem bcast_na_na1_apply {n a : ℕ} (h : (⟨2, ![n, a]⟩ : Shape).BroadcastsInDim ⟨3, ![n, a, 1]⟩ (![0, 1] : Fin 2 → Fin 3))
    (x : (⟨2, ![n, a]⟩ : Shape).Idx → α) (b : Fin n) (c : Fin a) (u : Fin 1) :
    broadcastInDim ⟨3, ![n, a, 1]⟩ (![0, 1] : Fin 2 → Fin 3) h x (ix3 b c u) = x (ix2 b c) := by
  refine broadcastInDim_apply (![0, 1] : Fin 2 → Fin 3) h x (ix3 b c u) (ix2 b c) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl

/-- [n, a, 1] repeated along the last axis of [n, a, m]. -/
theorem bcast_na1_nam_apply {n a m : ℕ} (h : (⟨3, ![n, a, 1]⟩ : Shape).BroadcastsInDim ⟨3, ![n, a, m]⟩ (![0, 1, 2] : Fin 3 → Fin 3))
    (x : (⟨3, ![n, a, 1]⟩ : Shape).Idx → α) (b : Fin n) (c : Fin a) (q : Fin m) :
    broadcastInDim ⟨3, ![n, a, m]⟩ (![0, 1, 2] : Fin 3 → Fin 3) h x (ix3 b c q) = x (ix3 b c (0 : Fin 1)) := by
  refine broadcastInDim_apply (![0, 1, 2] : Fin 3 → Fin 3) h x (ix3 b c q) (ix3 b c (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl

/-- [a, b] placed on axes 1, 2 of [1, a, b]. -/
theorem bcast_ab_1ab_apply {a b : ℕ} (h : (⟨2, ![a, b]⟩ : Shape).BroadcastsInDim ⟨3, ![1, a, b]⟩ (![1, 2] : Fin 2 → Fin 3))
    (x : (⟨2, ![a, b]⟩ : Shape).Idx → α) (u : Fin 1) (i : Fin a) (j : Fin b) :
    broadcastInDim ⟨3, ![1, a, b]⟩ (![1, 2] : Fin 2 → Fin 3) h x (ix3 u i j) = x (ix2 i j) := by
  refine broadcastInDim_apply (![1, 2] : Fin 2 → Fin 3) h x (ix3 u i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b] placed on axes 1, 2 of [n, a, b]: the same matrix for every batch element. -/
theorem bcast_ab_nab_apply {n a b : ℕ} (h : (⟨2, ![a, b]⟩ : Shape).BroadcastsInDim ⟨3, ![n, a, b]⟩ (![1, 2] : Fin 2 → Fin 3))
    (x : (⟨2, ![a, b]⟩ : Shape).Idx → α) (p : Fin n) (i : Fin a) (j : Fin b) :
    broadcastInDim ⟨3, ![n, a, b]⟩ (![1, 2] : Fin 2 → Fin 3) h x (ix3 p i j) = x (ix2 i j) := by
  refine broadcastInDim_apply (![1, 2] : Fin 2 → Fin 3) h x (ix3 p i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [1, a, b] repeated over the batch axis of [n, a, b]. -/
theorem bcast_1ab_nab_apply {n a b : ℕ} (h : (⟨3, ![1, a, b]⟩ : Shape).BroadcastsInDim ⟨3, ![n, a, b]⟩ (![0, 1, 2] : Fin 3 → Fin 3))
    (x : (⟨3, ![1, a, b]⟩ : Shape).Idx → α) (p : Fin n) (i : Fin a) (j : Fin b) :
    broadcastInDim ⟨3, ![n, a, b]⟩ (![0, 1, 2] : Fin 3 → Fin 3) h x (ix3 p i j) = x (ix3 (0 : Fin 1) i j) := by
  refine broadcastInDim_apply (![0, 1, 2] : Fin 3 → Fin 3) h x (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- [n] placed on axis 0 of [n, 1, 1]. -/
theorem bcast_n_n11_apply {n : ℕ} (h : (⟨1, ![n]⟩ : Shape).BroadcastsInDim ⟨3, ![n, 1, 1]⟩ (![0] : Fin 1 → Fin 3))
    (x : (⟨1, ![n]⟩ : Shape).Idx → α) (b : Fin n) (u v : Fin 1) :
    broadcastInDim ⟨3, ![n, 1, 1]⟩ (![0] : Fin 1 → Fin 3) h x (ix3 b u v) = x (ix1 b) := by
  refine broadcastInDim_apply (![0] : Fin 1 → Fin 3) h x (ix3 b u v) (ix1 b) fun ax => ?_
  match ax with
  | ⟨0, _⟩ =>
    show b.val = if n = 1 then 0 else b.val
    split
    · have := b.isLt; omega
    · rfl

/-- [n, 1, 1] repeated over the two matrix axes of [n, a, b]. -/
theorem bcast_n11_nab_apply {n a b : ℕ} (h : (⟨3, ![n, 1, 1]⟩ : Shape).BroadcastsInDim ⟨3, ![n, a, b]⟩ (![0, 1, 2] : Fin 3 → Fin 3))
    (x : (⟨3, ![n, 1, 1]⟩ : Shape).Idx → α) (p : Fin n) (i : Fin a) (j : Fin b) :
    broadcastInDim ⟨3, ![n, a, b]⟩ (![0, 1, 2] : Fin 3 → Fin 3) h x (ix3 p i j) = x (ix3 p (0 : Fin 1) (0 : Fin 1)) := by
  refine broadcastInDim_apply (![0, 1, 2] : Fin 3 → Fin 3) h x (ix3 p i j) (ix3 p (0 : Fin 1) (0 : Fin 1)) fun ax => ?_
  match ax with
  | ⟨0, _⟩ =>
    show p.val = if n = 1 then 0 else p.val
    split
    · have := p.isLt; omega
    · rfl
  | ⟨1, _⟩ => rfl
  | ⟨2, _⟩ => rfl

/-- [a] placed on axis 1 of [1, a]. -/
theorem bcast_a_1a_apply {a : ℕ} (h : (⟨1, ![a]⟩ : Shape).BroadcastsInDim ⟨2, ![1, a]⟩ (![1] : Fin 1 → Fin 2))
    (x : (⟨1, ![a]⟩ : Shape).Idx → α) (u : Fin 1) (i : Fin a) :
    broadcastInDim ⟨2, ![1, a]⟩ (![1] : Fin 1 → Fin 2) h x (ix2 u i) = x (ix1 i) := by
  refine broadcastInDim_apply (![1] : Fin 1 → Fin 2) h x (ix2 u i) (ix1 i) fun ax => ?_
  match ax with
  | ⟨0, _⟩ =>
    show i.val = if a = 1 then 0 else i.val
    split
    · have := i.isLt; omega
    · rfl

/-- [1, a] repeated over the rows of [n, a]. -/
theorem bcast_1a_na_apply {n a : ℕ} (h : (⟨2, ![1, a]⟩ : Shape).BroadcastsInDim ⟨2, ![n, a]⟩ (![0, 1] : Fin 2 → Fin 2))
    (x : (⟨2, ![1, a]⟩ : Shape).Idx → α) (p : Fin n) (i : Fin a) :
    broadcastInDim ⟨2, ![n, a]⟩ (![0, 1] : Fin 2 → Fin 2) h x (ix2 p i) = x (ix2 (0 : Fin 1) i) := by
  refine broadcastInDim_apply (![0, 1] : Fin 2 → Fin 2) h x (ix2 p i) (ix2 (0 : Fin 1) i) fun ax => ?_
  match ax with
  | ⟨0, _⟩ => rfl
  | ⟨1, _⟩ =>
    show i.val = if a = 1 then 0 else i.val
    split
    · have := i.isLt; omega
    · rfl

/-- [n, a] placed on axes 0, 1 of [n, a, 1, 1]. -/
theorem bcast_na_na11_apply {n a : ℕ} (h : (⟨2, ![n, a]⟩ : Shape).BroadcastsInDim ⟨4, ![n, a, 1, 1]⟩ (![0, 1] : Fin 2 → Fin 4))
    (x : (⟨2, ![n, a]⟩ : Shape).Idx → α) (b : Fin n) (c : Fin a) (u v : Fin 1) :
    broadcastInDim ⟨4, ![n, a, 1, 1]⟩ (![0, 1] : Fin 2 → Fin 4) h x (ix4 b c u v) = x (ix2 b c) := by
  refine broadcastInDim_apply (![0, 1] : Fin 2 → Fin 4) h x (ix4 b c u v) (ix2 b c) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl

/-- [n, a, 1, 1] repeated over the two trailing axes of [n, a, h, w]. -/
theorem bcast_na11_nahw_apply {n a hh w : ℕ}
    (h : (⟨4, ![n, a, 1, 1]⟩ : Shape).BroadcastsInDim ⟨4, ![n, a, hh, w]⟩ (![0, 1, 2, 3] : Fin 4 → Fin 4))
    (x : (⟨4, ![n, a, 1, 1]⟩ : Shape).Idx → α) (b : Fin n) (c : Fin a) (y : Fin hh) (z : Fin w) :
    broadcastInDim ⟨4, ![n, a, hh, w]⟩ (![0, 1, 2, 3] : Fin 4 → Fin 4) h x (ix4 b c y z) = x (ix4 b c (0 : Fin 1) (0 : Fin 1)) := by
  refine broadcastInDim_apply (![0, 1, 2, 3] : Fin 4 → Fin 4) h x (ix4 b c y z) (ix4 b c (0 : Fin 1) (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl
  | ⟨3, _⟩ => rfl

/-- A number (a rank-0 array) repeated over a two-axis shape. -/
theorem bcast_scalar2_apply {d : Fin 2 → ℕ} (h : (⟨0, ![]⟩ : Shape).BroadcastsInDim ⟨2, d⟩ (![] : Fin 0 → Fin 2))
    (x : (⟨0, ![]⟩ : Shape).Idx → α) (j : (⟨2, d⟩ : Shape).Idx) :
    broadcastInDim ⟨2, d⟩ (![] : Fin 0 → Fin 2) h x j = x ix0 := by
  unfold broadcastInDim; exact congrArg x (funext fun a => a.elim0)

/-- A number repeated over a three-axis shape. -/
theorem bcast_scalar3_apply {d : Fin 3 → ℕ} (h : (⟨0, ![]⟩ : Shape).BroadcastsInDim ⟨3, d⟩ (![] : Fin 0 → Fin 3))
    (x : (⟨0, ![]⟩ : Shape).Idx → α) (j : (⟨3, d⟩ : Shape).Idx) :
    broadcastInDim ⟨3, d⟩ (![] : Fin 0 → Fin 3) h x j = x ix0 := by
  unfold broadcastInDim; exact congrArg x (funext fun a => a.elim0)

/-- A matrix transposed: entry (j, i) is entry (i, j). -/
theorem transpose_2d_apply {a b : ℕ} (x : (⟨2, ![a, b]⟩ : Shape).Idx → α)
    (h : (⟨2, ![a, b]⟩ : Shape).Transposes ([1, 0] : List (Fin 2)) ⟨2, ![b, a]⟩) (j : Fin b) (i : Fin a) :
    transpose ⟨2, ![b, a]⟩ ([1, 0] : List (Fin 2)) x h (ix2 j i) = x (ix2 i j) :=
  transpose_apply _ x h _ _ fun c => match c with | ⟨0, _⟩ => rfl | ⟨1, _⟩ => rfl

end LibBatchLayouts

end
-- ==== Proof.KernelStages.lean ====
/-
  The kernel body on a block of four batch elements IS the specification on that block.

  Stage by stage: the block's covariance, the identity's entries, the trace, the scaled matrix, each product of the
  iteration, and finally the gate and the scaled block, each read at an entry and identified with the corresponding
  function of the mathematics (Spec).  Every stage depends on the block only through its entries (b, c, q), which
  is what lets the block be any four consecutive batch elements of the whole input.
-/
import proofs.«179594_j15358803050800_2_alg».proof.Proof.KernelOps
import proofs.«179594_j15358803050800_2_alg».proof.Proof.Spec
import proofs.«179594_j15358803050800_2_alg».proof.Proof.LibBatchLayouts
import Idealize.ShloMosaic.Lib.ValueLayout
import Idealize.ShloMosaic.Lib.KernelVsHost
import Idealize.ShloMosaic.Lib.Pipeline.Value

noncomputable section

namespace Cert.KernelIdeal.Read

open Cert.KernelIdeal Cert.KernelIdeal.Gen Idealize.ShloMosaic Idealize.ShloMosaic.ValueIdx

/-- A block's entries as a function of (batch element, channel, position). -/
abbrev rdX (v : Vec Ideal S4x64x9216 .f32) : Fin 4 → Fin 64 → Fin 9216 → EReal := fun b c q => v (ix3 b c q)
/-- A stack of four 64 × 64 matrices as a function of (batch element, row, column). -/
abbrev rdM (v : FVec Ideal S4x64x64 .f32) : Fin 4 → Fin 64 → Fin 64 → EReal := fun b i j => v (ix3 b i j)
/-- One number per batch element. -/
abbrev rdV (v : FVec Ideal S4 .f32) : Fin 4 → EReal := fun b => v (ix1 b)
/-- The perceptron's weights and biases by their coordinates. -/
abbrev rdW1 (v : Vec Ideal S8x64 .f32) : Fin 8 → Fin 64 → EReal := fun r c => v (ix2 r c)
abbrev rdB1 (v : Vec Ideal S8 .f32) : Fin 8 → EReal := fun r => v (ix1 r)
abbrev rdW2 (v : Vec Ideal S64x8 .f32) : Fin 64 → Fin 8 → EReal := fun c r => v (ix2 c r)
abbrev rdB2 (v : Vec Ideal S64 .f32) : Fin 64 → EReal := fun c => v (ix1 c)

/-- The block's covariance. -/
theorem cov_eq (x0 : Vec Ideal S4x64x9216 .f32) (b : Fin 4) (c d : Fin 64) :
    k0_pay3 (F := Ideal) x0 (ix3 b c d) = Soca.cov (rdX x0) b c d := by
  simp only [k0_pay3, k0_pay2, shapeCast_self, divf_apply, broadcast_apply, gram_apply, subf_apply,
    LibBatchLayouts.broadcastTo_na1_nam_apply, LibBatchLayouts.shapeCast_na_na1_apply, multiReduction_add_ideal, sumPos_apply]
  rfl

/-- The identity's entry: the comparison bit of the two indices, as a number. -/
theorem eye_eq (i j : Fin 64) : k0_pay4 (F := Ideal) (ix2 i j) = Soca.eye i j := by
  unfold k0_pay4
  rw [sitofp_extui_eq_uitofp]
  show (((IntOp.cmpi .eq (iota .tc S64x64 32 [0] _ (ix2 i j)) (iota .tc S64x64 32 [1] _ (ix2 i j))).toNat : ℝ) : EReal) = _
  rw [iota_single_apply, iota_single_apply]
  rfl

/-- Three times the identity, as the one-matrix stack the body keeps it in. -/
theorem i3_eq (u : Fin 1) (i j : Fin 64) :
    k0_pay5 (F := Ideal) (ix3 u i j) = Soca.W 0x40400000#32 * Soca.eye i j := by
  simp only [k0_pay5, shapeCast_ab_1ab_apply, mulf_apply, broadcast_apply, eye_eq]
  rfl

/-- The trace of the block's covariance. -/
theorem tr_eq (x0 : Vec Ideal S4x64x9216 .f32) (b : Fin 4) :
    k0_pay6 (F := Ideal) x0 (ix1 b) = Soca.tr (Soca.cov (rdX x0)) b := by
  simp only [k0_pay6, multiReduction_add_ideal, sumMat_apply, mulf_apply, LibBatchLayouts.broadcastTo_1ab_nab_apply, shapeCast_ab_1ab_apply,
    cov_eq, eye_eq]
  rfl

/-- The covariance divided by its trace. -/
theorem scaled_eq (x0 : Vec Ideal S4x64x9216 .f32) (b : Fin 4) (i j : Fin 64) :
    k0_pay7 (F := Ideal) x0 (ix3 b i j) = Soca.scale (Soca.cov (rdX x0)) (Soca.tr (Soca.cov (rdX x0))) b i j := by
  simp only [k0_pay7, divf_apply, LibBatchLayouts.broadcastTo_n11_nab_apply, LibBatchLayouts.shapeCast_n_n11_apply,
    cov_eq, tr_eq]
  rfl

/-- ½(3I − M) as the body spells it: the identity stack broadcast over the block, minus M, times the splat of ½. -/
theorem half_apply (M : FVec Ideal S4x64x64 .f32) (h : S1x64x64.Broadcasts S4x64x64) (b : Fin 4) (i j : Fin 64) :
    mulf (broadcast S4x64x64 (Scalar.ofBits (F := Ideal) .f32 0x3F000000#32))
        (subf (broadcastTo S4x64x64 (k0_pay5 (F := Ideal)) h) M) (ix3 b i j)
      = Soca.half (rdM M) b i j := by
  simp only [mulf_apply, subf_apply, broadcast_apply, LibBatchLayouts.broadcastTo_1ab_nab_apply, i3_eq]
  rfl

/-- 3I − M likewise. -/
theorem sub3_apply (M : FVec Ideal S4x64x64 .f32) (h : S1x64x64.Broadcasts S4x64x64) (b : Fin 4) (i j : Fin 64) :
    subf (broadcastTo S4x64x64 (k0_pay5 (F := Ideal)) h) M (ix3 b i j) = Soca.sub3 (rdM M) b i j := by
  simp only [subf_apply, LibBatchLayouts.broadcastTo_1ab_nab_apply, i3_eq]
  rfl

/-- The batched product as a function of the two stacks. -/
theorem mm_eq (l r : FVec Ideal S4x64x64 .f32) :
    rdM (matmul (F := Ideal) dot_S4x64x64_S4x64x64_S4x64x64_2_1_1_2_0_0 none l r (constant S4x64x64 .f32 0x00000000#32))
      = Soca.mm (rdM l) (rdM r) :=
  funext fun b => funext fun i => funext fun j => mm_apply l r b i j

end Cert.KernelIdeal.Read

end
-- ==== Proof.KernelBody.lean ====
/-
  The kernel body's result on a block, and the whole output array.

  The iteration's products are batched matrix products of stacks already identified with the mathematics, so each is
  one application of the product lemma; the tail of the body (two more steps of the iteration, the rescaled last half
  step, the column means, the perceptron and the logistic function) is read at an entry in one pass.  Together: the
  body maps a block x to  x(b, c, q) · gate(x)(b, c),  the gate of the mathematics on the block's four batch elements.
  Because the gate treats the batch coordinate pointwise, a block that is rows 4t … 4t+3 of the whole input gets
  rows 4t … 4t+3 of the whole output  X(b, c, q) · gate(X)(b, c).
-/
import proofs.«179594_j15358803050800_2_alg».proof.Proof.KernelStages
import proofs.«179594_j15358803050800_2_alg».proof.Proof.Gen.KernelIdeal.Frame
import Idealize.ShloMosaic.Lib.Pipeline.Value

noncomputable section

namespace Cert.KernelIdeal.Read

open Cert.KernelIdeal Cert.KernelIdeal.Gen Idealize.ShloMosaic Idealize.ShloMosaic.ValueIdx

theorem logistic_apply {s : Shape} (a : FVec Ideal s .f32) (i : s.Idx) : logistic a i = Ideal.logistic (a i) := rfl
theorem sqrt_apply {s : Shape} (a : FVec Ideal s .f32) (i : s.Idx) : sqrt a i = Ideal.sqrt (a i) := rfl

/-! ## The first products of the iteration -/

theorem tr_fun (x0 : Vec Ideal S4x64x9216 .f32) : rdV (k0_pay6 (F := Ideal) x0) = Soca.tr (Soca.cov (rdX x0)) :=
  funext fun b => tr_eq x0 b

theorem scaled_fun (x0 : Vec Ideal S4x64x9216 .f32) :
    rdM (k0_pay7 (F := Ideal) x0) = Soca.scale (Soca.cov (rdX x0)) (Soca.tr (Soca.cov (rdX x0))) :=
  funext fun b => funext fun i => funext fun j => scaled_eq x0 b i j

/-- Z₀ = ½(3I − A). -/
theorem z0_fun (x0 : Vec Ideal S4x64x9216 .f32) : rdM (k0_pay8 (F := Ideal) x0) = Soca.half (rdM (k0_pay7 (F := Ideal) x0)) := by
  funext b i j
  show k0_pay8 (F := Ideal) x0 (ix3 b i j) = _
  unfold k0_pay8
  exact half_apply (k0_pay7 x0) _ b i j

/-- Y₀ = A·Z₀. -/
theorem y0_fun (x0 : Vec Ideal S4x64x9216 .f32) :
    rdM (k0_pay9 (F := Ideal) x0) = Soca.mm (rdM (k0_pay7 (F := Ideal) x0)) (rdM (k0_pay8 (F := Ideal) x0)) := by
  unfold k0_pay9
  exact mm_eq _ _

/-- T₁ = ½(3I − Z₀)·Y₀. -/
theorem t1_fun (x0 : Vec Ideal S4x64x9216 .f32) :
    rdM (k0_pay10 (F := Ideal) x0) = Soca.mm (Soca.half (rdM (k0_pay8 (F := Ideal) x0))) (rdM (k0_pay9 (F := Ideal) x0)) := by
  unfold k0_pay10
  refine (mm_eq _ _).trans ?_
  exact congrArg (fun L => Soca.mm L (rdM (k0_pay9 (F := Ideal) x0)))
    (funext fun b => funext fun i => funext fun j => half_apply (k0_pay8 x0) _ b i j)

/-- Y₁ = Y₀·T₁. -/
theorem y1_fun (x0 : Vec Ideal S4x64x9216 .f32) :
    rdM (k0_pay11 (F := Ideal) x0) = Soca.mm (rdM (k0_pay9 (F := Ideal) x0)) (rdM (k0_pay10 (F := Ideal) x0)) := by
  unfold k0_pay11
  exact mm_eq _ _

/-- Z₁ = T₁·Z₀. -/
theorem z1_fun (x0 : Vec Ideal S4x64x9216 .f32) :
    rdM (k0_pay12 (F := Ideal) x0) = Soca.mm (rdM (k0_pay10 (F := Ideal) x0)) (rdM (k0_pay8 (F := Ideal) x0)) := by
  unfold k0_pay12
  exact mm_eq _ _

/-- ½(3I − Z₁), which the body computes before its second part. -/
theorem h1_eq (x0 : Vec Ideal S4x64x9216 .f32) (b : Fin 4) (i j : Fin 64) :
    k0_pay13 (F := Ideal) x0 (ix3 b i j) = Soca.half (rdM (k0_pay12 (F := Ideal) x0)) b i j := by
  unfold k0_pay13
  exact half_apply (k0_pay12 x0) _ b i j

/-- (Y₁, Z₁) is one step from the first pair. -/
theorem pair1 (x0 : Vec Ideal S4x64x9216 .f32) :
    (rdM (k0_pay11 (F := Ideal) x0), rdM (k0_pay12 (F := Ideal) x0))
      = Soca.step (Soca.init (Soca.scale (Soca.cov (rdX x0)) (Soca.tr (Soca.cov (rdX x0))))) := by
  rw [y1_fun, z1_fun, t1_fun, y0_fun, z0_fun, scaled_fun]
  rfl

/-! ## The second part of the body: two more steps, the last half step, the gate -/

theorem body_gate (t : FVec Ideal S4 .f32) (Y Z H : FVec Ideal S4x64x64 .f32) (a1 : Vec Ideal S8x64 .f32) (a2 : Vec Ideal S8 .f32)
    (a3 : Vec Ideal S64x8 .f32) (a4 : Vec Ideal S64 .f32)
    (hH : ∀ (b : Fin 4) (i j : Fin 64), H (ix3 b i j) = Soca.half (rdM Z) b i j) (b : Fin 4) (c : Fin 64) :
    k0_pay14 (F := Ideal) (k0_pay5 (F := Ideal)) t Y Z H (constant S4x64x64 .f32 0x00000000#32) a1 a2 a3 a4 (ix2 b c)
      = Soca.gate (Soca.hidden (Soca.colMean (Soca.fin (rdV t) (Soca.step (Soca.step (rdM Y, rdM Z))))) (rdW1 a1) (rdB1 a2))
          (rdW2 a3) (rdB2 a4) b c := by
  simp only [k0_pay14]
  -- the stacks of the two steps and of the last half step, named in the order the body computes them
  generalize hT2 : matmul (F := Ideal) dot_S4x64x64_S4x64x64_S4x64x64_2_1_1_2_0_0 none H Y (constant S4x64x64 .f32 0x00000000#32) = T2
  generalize hY2 : matmul (F := Ideal) dot_S4x64x64_S4x64x64_S4x64x64_2_1_1_2_0_0 none Y T2 (constant S4x64x64 .f32 0x00000000#32) = Y2
  generalize hZ2 : matmul (F := Ideal) dot_S4x64x64_S4x64x64_S4x64x64_2_1_1_2_0_0 none T2 Z (constant S4x64x64 .f32 0x00000000#32) = Z2
  generalize hH2 : mulf (broadcast S4x64x64 (Scalar.ofBits (F := Ideal) .f32 0x3F000000#32)) (subf (broadcastTo S4x64x64 (k0_pay5 (F := Ideal)) broadcasts_S1x64x64_S4x64x64) Z2) = H2
  generalize hT3 : matmul (F := Ideal) dot_S4x64x64_S4x64x64_S4x64x64_2_1_1_2_0_0 none H2 Y2 (constant S4x64x64 .f32 0x00000000#32) = T3
  generalize hY3 : matmul (F := Ideal) dot_S4x64x64_S4x64x64_S4x64x64_2_1_1_2_0_0 none Y2 T3 (constant S4x64x64 .f32 0x00000000#32) = Y3
  generalize hZ3 : matmul (F := Ideal) dot_S4x64x64_S4x64x64_S4x64x64_2_1_1_2_0_0 none T3 Z2 (constant S4x64x64 .f32 0x00000000#32) = Z3
  generalize hQ : matmul (F := Ideal) dot_S4x64x64_S4x64x64_S4x64x64_2_1_1_2_0_0 none Z3 Y3 (constant S4x64x64 .f32 0x00000000#32) = Q
  generalize hSb : subf (broadcastTo S4x64x64 (k0_pay5 (F := Ideal)) broadcasts_S1x64x64_S4x64x64) Q = Sb
  generalize hP : matmul (F := Ideal) dot_S4x64x64_S4x64x64_S4x64x64_2_1_1_2_0_0 none Y3 Sb (constant S4x64x64 .f32 0x00000000#32) = P
  have eT2 : rdM T2 = Soca.mm (Soca.half (rdM Z)) (rdM Y) := by
    rw [← hT2, mm_eq]
    exact congrArg (fun L => Soca.mm L (rdM Y)) (funext fun b => funext fun i => funext fun j => hH b i j)
  have eY2 : rdM Y2 = Soca.mm (rdM Y) (rdM T2) := by rw [← hY2, mm_eq]
  have eZ2 : rdM Z2 = Soca.mm (rdM T2) (rdM Z) := by rw [← hZ2, mm_eq]
  have eH2 : rdM H2 = Soca.half (rdM Z2) := by
    rw [← hH2]
    exact funext fun b => funext fun i => funext fun j => half_apply Z2 _ b i j
  have eT3 : rdM T3 = Soca.mm (rdM H2) (rdM Y2) := by rw [← hT3, mm_eq]
  have eY3 : rdM Y3 = Soca.mm (rdM Y2) (rdM T3) := by rw [← hY3, mm_eq]
  have eZ3 : rdM Z3 = Soca.mm (rdM T3) (rdM Z2) := by rw [← hZ3, mm_eq]
  have eQ : rdM Q = Soca.mm (rdM Z3) (rdM Y3) := by rw [← hQ, mm_eq]
  have eSb : rdM Sb = Soca.sub3 (rdM Q) := by
    rw [← hSb]
    exact funext fun b => funext fun i => funext fun j => sub3_apply Q _ b i j
  have eP : rdM P = Soca.mm (rdM Y3) (rdM Sb) := by rw [← hP, mm_eq]
  have key : rdM P = Soca.mm (Soca.step (Soca.step (rdM Y, rdM Z))).1
      (Soca.sub3 (Soca.mm (Soca.step (Soca.step (rdM Y, rdM Z))).2 (Soca.step (Soca.step (rdM Y, rdM Z))).1)) := by
    rw [eP, eSb, eQ, eY3, eZ3, eT3, eH2, eY2, eZ2, eT2]
    rfl
  have keyp : ∀ (b : Fin 4) (i j : Fin 64), P (ix3 b i j) = Soca.mm (Soca.step (Soca.step (rdM Y, rdM Z))).1
      (Soca.sub3 (Soca.mm (Soca.step (Soca.step (rdM Y, rdM Z))).2 (Soca.step (Soca.step (rdM Y, rdM Z))).1)) b i j :=
    fun b i j => congrFun (congrFun (congrFun key b) i) j
  simp only [logistic_apply, addf_apply, fc2_apply, maximumf_apply, fc1_apply, divf_apply, broadcast_apply,
    multiReduction_add_ideal, sumRows_apply, mulf_apply, sqrt_apply,
    LibBatchLayouts.broadcastTo_n11_nab_apply, LibBatchLayouts.shapeCast_n_n11_apply,
    LibBatchLayouts.transpose_2d_apply, shapeCast_a_1a_apply, broadcastTo_1b_ab_apply, keyp]
  rfl

/-! ## The body's result on a block -/

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The body maps a block to the block scaled, channel by channel, by the gate of its four batch elements. -/
theorem block_eq (x0 : Vec Ideal S4x64x9216 .f32) (a1 : Vec Ideal S8x64 .f32) (a2 : Vec Ideal S8 .f32) (a3 : Vec Ideal S64x8 .f32)
    (a4 : Vec Ideal S64 .f32) (b : Fin 4) (c : Fin 64) (q : Fin 9216) :
    out0_5 (F := Ideal) x0 a1 a2 a3 a4 (ix3 b c q)
      = x0 (ix3 b c q) * Soca.gateOf (rdX x0) (rdW1 a1) (rdB1 a2) (rdW2 a3) (rdB2 a4) b c := by
  unfold out0_5
  rw [View.canon_unit_zero zeros3]
  simp only [View.ld_unit_zero (S := S4x64x9216) zeros3, View.ld_unit_zero (S := S8x64) zeros2,
    View.ld_unit_zero (S := S8) zeros1, View.ld_unit_zero (S := S64x8) zeros2, View.ld_unit_zero (S := S64) zeros1]
  simp only [k0_pay1, mulf_apply, LibBatchLayouts.broadcastTo_na1_nam_apply, LibBatchLayouts.shapeCast_na_na1_apply,
    k0_pay2, shapeCast_self]
  rw [body_gate _ _ _ _ a1 a2 a3 a4 (h1_eq x0) b c, tr_fun, pair1]
  rfl

/-! ## The whole output array -/

/-- The whole result on the flattened input X: entry (b, c, q) is X(b, c, q) times the gate's entry (b, c). -/
def G (xr : Vec Ideal S32x64x9216 .f32) (a1 : Vec Ideal S8x64 .f32) (a2 : Vec Ideal S8 .f32) (a3 : Vec Ideal S64x8 .f32)
    (a4 : Vec Ideal S64 .f32) : Vec Ideal S32x64x9216 .f32 :=
  fun j => xr j * Soca.gateOf (fun (b : Fin 32) (c : Fin 64) (q : Fin 9216) => xr (ix3 b c q)) (rdW1 a1) (rdB1 a2) (rdW2 a3) (rdB2 a4)
    (j 0) (j 1)

/-- On a block that is rows 4t … 4t+3 of X the body leaves rows 4t … 4t+3 of `G X`. -/
theorem block_of_G (xr : Vec Ideal S32x64x9216 .f32) (a1 : Vec Ideal S8x64 .f32) (a2 : Vec Ideal S8 .f32)
    (a3 : Vec Ideal S64x8 .f32) (a4 : Vec Ideal S64 .f32) (f : Fin 4 → Fin 32) (x0 : Vec Ideal S4x64x9216 .f32)
    (hx : ∀ (b : Fin 4) (c : Fin 64) (q : Fin 9216), x0 (ix3 b c q) = xr (ix3 (f b) c q))
    (b : Fin 4) (c : Fin 64) (q : Fin 9216) :
    out0_5 (F := Ideal) x0 a1 a2 a3 a4 (ix3 b c q) = G xr a1 a2 a3 a4 (ix3 (f b) c q) := by
  rw [block_eq, hx b c q]
  have e : rdX x0 = fun b' => (fun (b : Fin 32) (c : Fin 64) (q : Fin 9216) => xr (ix3 b c q)) (f b') :=
    funext fun b' => funext fun c => funext fun q => hx b' c q
  rw [e]
  have hg := congrFun (congrFun (Soca.gateOf_comp f (fun (b : Fin 32) (c : Fin 64) (q : Fin 9216) => xr (ix3 b c q))
    (rdW1 a1) (rdB1 a2) (rdW2 a3) (rdB2 a4)) b) c
  unfold G
  exact congrArg (fun g : EReal => xr (ix3 (f b) c q) * g) hg

end Cert.KernelIdeal.Read

end
-- ==== Proof.LibMatIdx.lean ====
/-
  A host product of two matrices at exact arithmetic, read at an entry: the sum over the contracted axis of the
  products of the left factor's row entries with the right factor's column entries. Stated for any contraction
  record between two-axis shapes whose operand indices are "row of the result, contracted position" and "contracted
  position, column of the result" — facts that hold by computation for the records a product of two matrices prints.
-/
import Idealize.ShloMosaic.Lib.ValueIdx
import Idealize.ShloMosaic.PureOps.Ideal.Laws

noncomputable section

namespace LibMatIdx

open Idealize.ShloMosaic Idealize.ShloMosaic.ValueIdx

theorem dot2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) D prec l r j = ∑ k : Fin K, l (ix2 (n0 := M) (n1 := K) (j 0) k) * r (ix2 (n0 := K) (n1 := N) k (j 1)) := by
  show FloatOps.dotGeneral (F := Ideal) D prec .single l r j = _
  rw [Ideal.dotGeneral_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatIdx

end
-- ==== Proof.RefOps.lean ====
/-
  The reference's operations on the whole batch of thirty-two, each read at an entry: the host's sums over one or two
  axes (the initial value plus the sum), the two batched products, and the two small products of the perceptron.
-/
import proofs.«179594_j15358803050800_2_alg».proof.Proof.Gen.ReferenceIdeal
import proofs.«179594_j15358803050800_2_alg».proof.Proof.LibBatchedProducts
import proofs.«179594_j15358803050800_2_alg».proof.Proof.LibReduceTwoAxes
import proofs.«179594_j15358803050800_2_alg».proof.Proof.LibMatIdx
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.ValueIdx

/-- The host's sum over the 9216 positions of [32, 64, 9216], at (b, c). -/
theorem sumPos_apply (x : FVec Ideal S32x64x9216 .f32) (init : FVec Ideal S_ .f32) (h : S32x64x9216.ReducesTo [2] S32x64)
    (hu : 0 < S_.numel) (b : Fin 32) (c : Fin 64) :
    Host.reduceAdd (F := Ideal) x init h hu (ix2 b c) = init (Shape.Idx.first hu) + ∑ q : Fin 9216, x (ix3 b c q) := by
  have hr : S32x64x9216.Reduces [2] S32x64 := by decide
  show Ideal.hostReduceAdd h x _ (ix2 b c) = _
  refine (Ideal.hostReduceAdd_single h hr x _ (ix2 b c)).trans (congrArg (_ + ·) ?_)
  exact Finset.sum_congr rfl fun q _ => congrArg x (funext fun a => Fin.ext (by
    match a with
    | ⟨0, _⟩ => rfl
    | ⟨1, _⟩ => rfl
    | ⟨2, _⟩ => rfl))

/-- The host's sum over the first matrix axis of [32, 64, 64], at (b, j). -/
theorem sumRows_apply (x : FVec Ideal S32x64x64 .f32) (init : FVec Ideal S_ .f32) (h : S32x64x64.ReducesTo [1] S32x64)
    (hu : 0 < S_.numel) (b : Fin 32) (j : Fin 64) :
    Host.reduceAdd (F := Ideal) x init h hu (ix2 b j) = init (Shape.Idx.first hu) + ∑ i : Fin 64, x (ix3 b i j) := by
  have hr : S32x64x64.Reduces [1] S32x64 := by decide
  show Ideal.hostReduceAdd h x _ (ix2 b j) = _
  refine (Ideal.hostReduceAdd_single h hr x _ (ix2 b j)).trans (congrArg (_ + ·) ?_)
  exact Finset.sum_congr rfl fun i _ => congrArg x (funext fun a => Fin.ext (by
    match a with
    | ⟨0, _⟩ => rfl
    | ⟨1, _⟩ => rfl
    | ⟨2, _⟩ => rfl))

/-- The host's sum over both matrix axes of [32, 64, 64], at b. -/
theorem sumMat_apply (x : FVec Ideal S32x64x64 .f32) (init : FVec Ideal S_ .f32) (h : S32x64x64.ReducesTo [1, 2] S32)
    (hu : 0 < S_.numel) (b : Fin 32) :
    Host.reduceAdd (F := Ideal) x init h hu (ix1 b) = init (Shape.Idx.first hu) + ∑ i : Fin 64, ∑ j : Fin 64, x (ix3 b i j) :=
  LibReduceTwoAxes.hostReduceAdd_axes12 h x _ b

/-- The host product "b c m , b d m → b c d", at (b, c, d). -/
theorem gram_apply (l r : FVec Ideal S32x64x9216 .f32) (b : Fin 32) (c d : Fin 64) :
    Host.dotGeneral (F := Ideal) dot_S32x64x9216_S32x64x9216_S32x64x64_2_2_1_1_0_0 none l r (ix3 b c d)
      = ∑ q : Fin 9216, l (ix3 b c q) * r (ix3 b d q) :=
  (Ideal.dotGeneral_apply _ none .single l r _).trans
    (LibBatchedProducts.sum_nt dot_S32x64x9216_S32x64x9216_S32x64x64_2_2_1_1_0_0 rfl rfl
      (fun _ _ => rfl) (fun _ _ => rfl) (fun _ _ => rfl) (fun _ _ => rfl) (fun _ _ => rfl) (fun _ _ => rfl) l r (ix3 b c d))

/-- The host's batched matrix product, at (b, i, j). -/
theorem mm_apply (l r : FVec Ideal S32x64x64 .f32) (b : Fin 32) (i j : Fin 64) :
    Host.dotGeneral (F := Ideal) dot_S32x64x64_S32x64x64_S32x64x64_2_1_1_2_0_0 none l r (ix3 b i j)
      = ∑ k : Fin 64, l (ix3 b i k) * r (ix3 b k j) :=
  (Ideal.dotGeneral_apply _ none .single l r _).trans
    (LibBatchedProducts.sum_nn dot_S32x64x64_S32x64x64_S32x64x64_2_1_1_2_0_0 rfl rfl
      (fun _ _ => rfl) (fun _ _ => rfl) (fun _ _ => rfl) (fun _ _ => rfl) (fun _ _ => rfl) (fun _ _ => rfl) l r (ix3 b i j))

/-- The first perceptron product [32, 64] · [64, 8], at (b, r). -/
theorem fc1_apply (l : FVec Ideal S32x64 .f32) (r : FVec Ideal S64x8 .f32) (b : Fin 32) (k : Fin 8) :
    Host.dotGeneral (F := Ideal) dot_S32x64_S64x8_S32x8_1_0_0_1_n_n none l r (ix2 b k) = ∑ c : Fin 64, l (ix2 b c) * r (ix2 c k) :=
  LibMatIdx.dot2_apply dot_S32x64_S64x8_S32x8_1_0_0_1_n_n rfl rfl
    (fun _ _ => rfl) (fun _ _ => rfl) (fun _ _ => rfl) (fun _ _ => rfl) none l r (ix2 b k)

/-- The second perceptron product [32, 8] · [8, 64], at (b, c). -/
theorem fc2_apply (l : FVec Ideal S32x8 .f32) (r : FVec Ideal S8x64 .f32) (b : Fin 32) (c : Fin 64) :
    Host.dotGeneral (F := Ideal) dot_S32x8_S8x64_S32x64_1_0_0_1_n_n none l r (ix2 b c) = ∑ k : Fin 8, l (ix2 b k) * r (ix2 k c) :=
  LibMatIdx.dot2_apply dot_S32x8_S8x64_S32x64_1_0_0_1_n_n rfl rfl
    (fun _ _ => rfl) (fun _ _ => rfl) (fun _ _ => rfl) (fun _ _ => rfl) none l r (ix2 b c)

end Cert.ReferenceIdeal.Read

end
-- ==== Proof.LibReciprocalScale.lean ====
/-
  A product with a reciprocal against a quotient, on the extended reals.

  At exact arithmetic a quotient a / d by d ≠ 0 is a · d⁻¹, and 1 / d is d⁻¹, so a · (1 / d) = a / d for EVERY extended
  real a, the infinities included: no finiteness is needed, only d ≠ 0. A maximum with the value of the f32 word
  0x3F800000 (the real 1) is at least 1, hence never 0: a degree clamped below at 1 can always be divided by.
-/
import Idealize.ShloMosaic.PureOps.Ideal.Laws

noncomputable section

namespace LibReciprocalScale

open Idealize.ShloMosaic

/-- The f32 word 0x3F800000 denotes the real 1. -/
theorem ofBits_one_f32 : Ideal.ofBits .f32 0x3F800000#32 = 1 := by
  simp [Ideal.ofBits, Ideal.ieee, -EReal.coe_mul]; norm_num

/-- A maximum with the word 0x3F800000's value is not 0. -/
theorem max_one_ne_zero (x : EReal) : max x (Ideal.ofBits .f32 0x3F800000#32) ≠ 0 := by
  rw [ofBits_one_f32]
  exact ne_of_gt (lt_of_lt_of_le zero_lt_one (le_max_right x 1))

/-- Off zero, the product with the reciprocal is the quotient, on every extended real. -/
theorem mul_one_div (a d : EReal) (hd : d ≠ 0) : a * Ideal.div 1 d = Ideal.div a d := by
  unfold Ideal.div
  rw [if_neg hd, if_neg hd, one_mul]

end LibReciprocalScale

end
-- ==== Proof.RefStages.lean ====
/-
  The reference on the whole batch IS the specification.

  Stage by stage, as for the kernel's block: the covariance, three times the identity, the trace (here the sum of the
  matrix masked to its diagonal by a selection, which is the sum of its products with the identity's entries), the
  scaled matrix, ½(3I − M), the batched product, the iteration's pairs, the rescaled last half step, the gate (the
  logistic function written 1 / (1 + exp (−·)), which is the logistic function of the extended reals by definition)
  and the scaled input, each read at an entry and identified with the corresponding function of the mathematics.
-/
import proofs.«179594_j15358803050800_2_alg».proof.Proof.RefDefs
import proofs.«179594_j15358803050800_2_alg».proof.Proof.RefOps
import proofs.«179594_j15358803050800_2_alg».proof.Proof.Spec
import proofs.«179594_j15358803050800_2_alg».proof.Proof.LibBatchLayouts
import proofs.«179594_j15358803050800_2_alg».proof.Proof.LibReciprocalScale
import Idealize.ShloMosaic.Lib.ValueLayout
import Idealize.ShloMosaic.Lib.IdealHost
import Idealize.ShloMosaic.Lib.Pipeline.Value

noncomputable section

namespace Cert.ReferenceIdeal.Read

open Cert.ReferenceIdeal Cert.ReferenceIdeal.Gen Cert.ReferenceIdeal.HandRun Idealize.ShloMosaic Idealize.ShloMosaic.ValueIdx

/-- The flattened input's entries as a function of (batch element, channel, position). -/
abbrev rdX (v : Vec Ideal S32x64x9216 .f32) : Fin 32 → Fin 64 → Fin 9216 → EReal := fun b c q => v (ix3 b c q)
/-- A stack of thirty-two 64 × 64 matrices as a function of (batch element, row, column). -/
abbrev rdM (v : Vec Ideal S32x64x64 .f32) : Fin 32 → Fin 64 → Fin 64 → EReal := fun b i j => v (ix3 b i j)
/-- One number per batch element. -/
abbrev rdV (v : Vec Ideal S32 .f32) : Fin 32 → EReal := fun b => v (ix1 b)
/-- A pair of stacks. -/
abbrev rdP (p : Vec Ideal S32x64x64 .f32 × Vec Ideal S32x64x64 .f32) :
    (Fin 32 → Fin 64 → Fin 64 → EReal) × (Fin 32 → Fin 64 → Fin 64 → EReal) := (rdM p.1, rdM p.2)
/-- The perceptron's weights and biases by their coordinates. -/
abbrev rdW1 (v : Vec Ideal S8x64 .f32) : Fin 8 → Fin 64 → EReal := fun r c => v (ix2 r c)
abbrev rdB1 (v : Vec Ideal S8 .f32) : Fin 8 → EReal := fun r => v (ix1 r)
abbrev rdW2 (v : Vec Ideal S64x8 .f32) : Fin 64 → Fin 8 → EReal := fun c r => v (ix2 c r)
abbrev rdB2 (v : Vec Ideal S64 .f32) : Fin 64 → EReal := fun c => v (ix1 c)

/-- The host's quotient at an entry. -/
theorem hdivf_apply {s : Shape} (a b : FVec Ideal s .f32) (i : s.Idx) : Host.divf a b i = Ideal.div (a i) (b i) := rfl

/-- The host's exponential and negation at an entry. -/
theorem hexp_apply {s : Shape} (a : FVec Ideal s .f32) (i : s.Idx) : Host.exp a i = Ideal.exp (a i) := rfl
theorem hnegf_apply {s : Shape} (a : FVec Ideal s .f32) (i : s.Idx) : Host.negf a i = -(a i) := rfl

/-- A sum started from the zero word's value is the sum. -/
theorem zero_word_add (x : EReal) : Ideal.ofBits .f32 0x00000000#32 + x = x := by
  rw [Ideal.ofBits_zero_f32, zero_add]

/-- The word of 1.0 denotes 1. -/
theorem one_word : Ideal.ofBits .f32 0x3F800000#32 = 1 := LibReciprocalScale.ofBits_one_f32

/-- The covariance. -/
theorem cov_eq (x : Vec Ideal S32x64x9216 .f32) (b : Fin 32) (c d : Fin 64) :
    rCov (F := Ideal) x (ix3 b c d) = Soca.cov (rdX x) b c d := by
  simp only [rCov, hdivf_apply, gram_apply, subf_apply, LibBatchLayouts.bcast_na1_nam_apply,
    LibBatchLayouts.bcast_na_na1_apply, LibBatchLayouts.bcast_scalar2_apply, LibBatchLayouts.bcast_scalar3_apply, sumPos_apply, constant_apply, zero_word_add]
  rfl

/-- The comparison bit, with the reference's "+ 0" on the row index. -/
theorem eyeBit_eq (i j : Fin 64) :
    IntOp.cmpi .eq (IntOp.addi (BitVec.ofNat 32 i.val) 0#32) (BitVec.ofNat 32 j.val) = Soca.eyeBit i j := by
  unfold Soca.eyeBit
  congr 1
  exact BitVec.add_zero _

/-- Three times the identity. -/
theorem i3_eq (i j : Fin 64) : rI3 (F := Ideal) (ix2 i j) = Soca.W 0x40400000#32 * Soca.eye i j := by
  unfold rI3
  show Ideal.ofBits .f32 0x40400000#32 * (((IntOp.cmpi .eq (IntOp.addi (iotaInDim S64x64 32 0 (ix2 i j)) _) (iotaInDim S64x64 32 1 (ix2 i j))).toNat : ℝ) : EReal) = _
  rw [iotaInDim_apply, iotaInDim_apply]
  exact congrArg (fun z : BitVec 1 => Ideal.ofBits .f32 0x40400000#32 * (((z.toNat : ℝ)) : EReal)) (eyeBit_eq i j)

/-- The trace: the masked sum is the sum of the products with the identity's entries. -/
theorem tr_eq (C : Vec Ideal S32x64x64 .f32) (b : Fin 32) : rTr (F := Ideal) C (ix1 b) = Soca.tr (rdM C) b := by
  unfold rTr Soca.tr
  rw [sumMat_apply]
  simp only [constant_apply, zero_word_add, select_apply, LibBatchLayouts.bcast_ab_nab_apply, LibBatchLayouts.bcast_scalar2_apply, LibBatchLayouts.bcast_scalar3_apply,
    Soca.mul_eye]
  refine Finset.sum_congr rfl fun i _ => Finset.sum_congr rfl fun j _ => ?_
  show Scalar.select (IntOp.cmpi .eq (IntOp.addi (iotaInDim S64x64 32 0 (ix2 i j)) _) (iotaInDim S64x64 32 1 (ix2 i j))) _ _ = _
  rw [iotaInDim_apply, iotaInDim_apply]
  exact congrArg (fun z : BitVec 1 => Scalar.select z (C (ix3 b i j)) (Ideal.ofBits .f32 0x00000000#32)) (eyeBit_eq i j)

/-- The matrix divided by its batch element's trace. -/
theorem scaled_eq (C : Vec Ideal S32x64x64 .f32) (t : Vec Ideal S32 .f32) (b : Fin 32) (i j : Fin 64) :
    rA (F := Ideal) C t (ix3 b i j) = Soca.scale (rdM C) (rdV t) b i j := by
  simp only [rA, hdivf_apply, LibBatchLayouts.bcast_n11_nab_apply, LibBatchLayouts.bcast_n_n11_apply]
  rfl

/-- 3I − M. -/
theorem sub3_eq (M : Vec Ideal S32x64x64 .f32) (b : Fin 32) (i j : Fin 64) :
    rSub (F := Ideal) rI3 M (ix3 b i j) = Soca.sub3 (rdM M) b i j := by
  simp only [rSub, subf_apply, LibBatchLayouts.bcast_1ab_nab_apply, LibBatchLayouts.bcast_ab_1ab_apply, i3_eq]
  rfl

/-- ½(3I − M). -/
theorem half_eq (M : Vec Ideal S32x64x64 .f32) (b : Fin 32) (i j : Fin 64) :
    rHalf (F := Ideal) rI3 M (ix3 b i j) = Soca.half (rdM M) b i j := by
  simp only [rHalf, mulf_apply, LibBatchLayouts.bcast_scalar2_apply, LibBatchLayouts.bcast_scalar3_apply, constant_apply, sub3_eq]
  rfl

theorem sub3_fun (M : Vec Ideal S32x64x64 .f32) : rdM (rSub (F := Ideal) rI3 M) = Soca.sub3 (rdM M) :=
  funext fun b => funext fun i => funext fun j => sub3_eq M b i j

theorem half_fun (M : Vec Ideal S32x64x64 .f32) : rdM (rHalf (F := Ideal) rI3 M) = Soca.half (rdM M) :=
  funext fun b => funext fun i => funext fun j => half_eq M b i j

/-- The batched product. -/
theorem mm_fun (A B : Vec Ideal S32x64x64 .f32) : rdM (rMM (F := Ideal) A B) = Soca.mm (rdM A) (rdM B) :=
  funext fun b => funext fun i => funext fun j => mm_apply A B b i j

/-- The iteration's first pair. -/
theorem init_eq (A : Vec Ideal S32x64x64 .f32) : rdP (rInit (F := Ideal) rI3 A) = Soca.init (rdM A) := by
  show (rdM (rMM A (rHalf rI3 A)), rdM (rHalf rI3 A)) = (Soca.mm (rdM A) (Soca.half (rdM A)), Soca.half (rdM A))
  rw [mm_fun, half_fun]

/-- One step of the iteration. -/
theorem step_eq (p : Vec Ideal S32x64x64 .f32 × Vec Ideal S32x64x64 .f32) :
    rdP (rStep (F := Ideal) rI3 p) = Soca.step (rdP p) := by
  show (rdM (rMM p.1 (rMM (rHalf rI3 p.2) p.1)), rdM (rMM (rMM (rHalf rI3 p.2) p.1) p.2))
    = (Soca.mm (rdM p.1) (Soca.mm (Soca.half (rdM p.2)) (rdM p.1)), Soca.mm (Soca.mm (Soca.half (rdM p.2)) (rdM p.1)) (rdM p.2))
  rw [mm_fun, mm_fun, mm_fun, mm_fun, half_fun]

/-- The rescaled last half step. -/
theorem fin_eq (t : Vec Ideal S32 .f32) (p : Vec Ideal S32x64x64 .f32 × Vec Ideal S32x64x64 .f32) (b : Fin 32) (i j : Fin 64) :
    rFin (F := Ideal) rI3 t p (ix3 b i j) = Soca.fin (rdV t) (rdP p) b i j := by
  have e : rdM (rMM p.1 (rSub rI3 (rMM p.2 p.1))) = Soca.mm (rdM p.1) (Soca.sub3 (Soca.mm (rdM p.2) (rdM p.1))) := by
    rw [mm_fun, sub3_fun, mm_fun]
  simp only [rFin, mulf_apply, LibBatchLayouts.bcast_scalar2_apply, LibBatchLayouts.bcast_scalar3_apply, constant_apply, LibBatchLayouts.bcast_n11_nab_apply,
    LibBatchLayouts.bcast_n_n11_apply]
  show Ideal.ofBits .f32 0x3F000000#32 * rdM (rMM p.1 (rSub rI3 (rMM p.2 p.1))) b i j * Ideal.sqrt (t (ix1 b)) = _
  rw [e]
  rfl

/-- The gate. -/
theorem gate_eq (S : Vec Ideal S32x64x64 .f32) (a1 : Vec Ideal S8x64 .f32) (a2 : Vec Ideal S8 .f32) (a3 : Vec Ideal S64x8 .f32)
    (a4 : Vec Ideal S64 .f32) (b : Fin 32) (c : Fin 64) :
    rGate (F := Ideal) S a1 a2 a3 a4 (ix2 b c)
      = Soca.gate (Soca.hidden (Soca.colMean (rdM S)) (rdW1 a1) (rdB1 a2)) (rdW2 a3) (rdB2 a4) b c := by
  simp only [rGate, hdivf_apply, hexp_apply, hnegf_apply, addf_apply, maximumf_apply, LibBatchLayouts.bcast_scalar2_apply, LibBatchLayouts.bcast_scalar3_apply, constant_apply, fc1_apply, fc2_apply,
    LibBatchLayouts.transpose_2d_apply, LibBatchLayouts.bcast_1a_na_apply, LibBatchLayouts.bcast_a_1a_apply, sumRows_apply, zero_word_add,
    one_word]
  rfl

/-- The input scaled by the gate. -/
theorem out_eq (a0 : Vec Ideal S32x64x96x96 .f32) (g : Vec Ideal S32x64 .f32) (b : Fin 32) (c : Fin 64) (y z : Fin 96) :
    rOut (F := Ideal) a0 g (ix4 b c y z) = a0 (ix4 b c y z) * g (ix2 b c) := by
  simp only [rOut, mulf_apply, LibBatchLayouts.bcast_na11_nahw_apply, LibBatchLayouts.bcast_na_na11_apply]

/-- The whole gate of the reference is the gate of the mathematics on the flattened input. -/
theorem refGate_eq (a0 : Vec Ideal S32x64x96x96 .f32) (a1 : Vec Ideal S8x64 .f32) (a2 : Vec Ideal S8 .f32)
    (a3 : Vec Ideal S64x8 .f32) (a4 : Vec Ideal S64 .f32) (b : Fin 32) (c : Fin 64) :
    rGate (F := Ideal) (rFin rI3 (rTr (rCov (rXr a0)))
        (rStep rI3 (rStep rI3 (rStep rI3 (rInit rI3 (rA (rCov (rXr a0)) (rTr (rCov (rXr a0))))))))) a1 a2 a3 a4 (ix2 b c)
      = Soca.gateOf (rdX (rXr a0)) (rdW1 a1) (rdB1 a2) (rdW2 a3) (rdB2 a4) b c := by
  rw [gate_eq]
  have hC : rdM (rCov (F := Ideal) (rXr a0)) = Soca.cov (rdX (rXr a0)) :=
    funext fun b => funext fun i => funext fun j => cov_eq _ b i j
  have ht : rdV (rTr (F := Ideal) (rCov (rXr a0))) = Soca.tr (Soca.cov (rdX (rXr a0))) := by
    funext b
    show rTr (rCov (rXr a0)) (ix1 b) = _
    rw [tr_eq, hC]
  have hA : rdM (rA (F := Ideal) (rCov (rXr a0)) (rTr (rCov (rXr a0))))
      = Soca.scale (Soca.cov (rdX (rXr a0))) (Soca.tr (Soca.cov (rdX (rXr a0)))) := by
    funext b i j
    show rA (rCov (rXr a0)) (rTr (rCov (rXr a0))) (ix3 b i j) = _
    rw [scaled_eq, hC, ht]
  have hS : rdM (rFin (F := Ideal) rI3 (rTr (rCov (rXr a0)))
        (rStep rI3 (rStep rI3 (rStep rI3 (rInit rI3 (rA (rCov (rXr a0)) (rTr (rCov (rXr a0)))))))))
      = Soca.covSqrt (rdX (rXr a0)) := by
    funext b i j
    show rFin rI3 _ _ (ix3 b i j) = _
    rw [fin_eq, step_eq, step_eq, step_eq, init_eq, hA, ht]
    rfl
  rw [hS]
  rfl

end Cert.ReferenceIdeal.Read

end
-- ==== Proof.Bridge.lean ====
/-
  The two programs end with the same array.

  The kernel's program ends with the reshape to [32, 64, 96, 96] of the array  X(b, c, q) · gate(X)(b, c)  on the
  flattened input X (q = 96·y + z); the reference ends with  x(b, c, y, z) · gate(X)(b, c).  Entry (b, c, y, z) of
  the reshape is entry (b, c, 96·y + z) of the flat array, and X(b, c, 96·y + z) = x(b, c, y, z): the same number.
-/
import proofs.«179594_j15358803050800_2_alg».proof.Proof.KernelBody
import proofs.«179594_j15358803050800_2_alg».proof.Proof.RefStages

noncomputable section

namespace Cert.Proof.Bridge

open Idealize.ShloMosaic Idealize.ShloMosaic.ValueIdx

/-- Row-major position (b, c, 96·y + z) of [32, 64, 9216] is position (b, c, y, z) of [32, 64, 96, 96]. -/
theorem pos_eq (b : Fin 32) (c : Fin 64) (y z : Fin 96) (hq : 96 * y.val + z.val < 9216) :
    ((⟨3, ![32, 64, 9216]⟩ : Shape).rowMajor (ix3 b c (⟨96 * y.val + z.val, hq⟩ : Fin 9216))).val
      = ((⟨4, ![32, 64, 96, 96]⟩ : Shape).rowMajor (ix4 b c y z)).val := by
  rw [Shape.rowMajor_val_three, Shape.rowMajor_val_four]
  show (b.val * 64 + c.val) * 9216 + (96 * y.val + z.val) = ((b.val * 64 + c.val) * 96 + y.val) * 96 + z.val
  omega

theorem results_eq (a0 : Vec Ideal Cert.ReferenceIdeal.S32x64x96x96 .f32) (a1 : Vec Ideal Cert.ReferenceIdeal.S8x64 .f32)
    (a2 : Vec Ideal Cert.ReferenceIdeal.S8 .f32) (a3 : Vec Ideal Cert.ReferenceIdeal.S64x8 .f32)
    (a4 : Vec Ideal Cert.ReferenceIdeal.S64 .f32)
    (h1 : Cert.KernelIdeal.S32x64x96x96.ShapeCasts Cert.KernelIdeal.S32x64x9216)
    (h2 : Cert.KernelIdeal.S32x64x9216.ShapeCasts Cert.KernelIdeal.S32x64x96x96) :
    shapeCast Cert.KernelIdeal.S32x64x96x96
        (Cert.KernelIdeal.Read.G (shapeCast Cert.KernelIdeal.S32x64x9216 a0 h1) a1 a2 a3 a4) h2
      = Cert.ReferenceIdeal.HandRun.refOut (F := Ideal) a0 a1 a2 a3 a4 := by
  funext i
  obtain ⟨b, c, y, z, rfl⟩ : ∃ (b : Fin 32) (c : Fin 64) (y z : Fin 96), i = ix4 b c y z :=
    ⟨i 0, i 1, i 2, i 3, eq_ix4 i⟩
  have hq : 96 * y.val + z.val < 9216 := by omega
  have hx : shapeCast Cert.KernelIdeal.S32x64x9216 a0 h1 (ix3 b c (⟨96 * y.val + z.val, hq⟩ : Fin 9216)) = a0 (ix4 b c y z) :=
    shapeCast_apply a0 h1 _ _ (pos_eq b c y z hq).symm
  rw [shapeCast_apply _ h2 (ix4 b c y z) (ix3 b c (⟨96 * y.val + z.val, hq⟩ : Fin 9216)) (pos_eq b c y z hq)]
  unfold Cert.ReferenceIdeal.HandRun.refOut
  rw [Cert.ReferenceIdeal.Read.out_eq, Cert.ReferenceIdeal.Read.refGate_eq]
  unfold Cert.KernelIdeal.Read.G
  show shapeCast Cert.KernelIdeal.S32x64x9216 a0 h1 (ix3 b c (⟨96 * y.val + z.val, hq⟩ : Fin 9216)) * _ = _
  rw [hx]
  rfl

end Cert.Proof.Bridge

end
-- ==== Proof.lean ====
/- The certificate of a fused second-order channel attention kernel against its jnp reference, on the extended reals.

   The kernel's program flattens the input's two spatial axes, runs one region over eight blocks of four batch
   elements, and restores the axes; on each block the body computes the channel covariance, its matrix square root by
   five Newton–Schulz iterations, a two-layer gate from the root's column means, and scales the block by the gate.  The
   reference does the same on all thirty-two batch elements at once.  At exact arithmetic both are ONE function of the
   input (Proof/Spec.lean): every operation treats the batch coordinate pointwise, so the body on rows 4t … 4t+3 of the
   input gives rows 4t … 4t+3 of the whole result.  No finiteness is used: the two programs apply the same exact
   operations in the same order; the only re-spellings are the trace (a product with the identity's 0/1 entries
   against a selection, equal because x·1 = x and x·0 = 0 on all extended reals) and the logistic function (one
   operation against 1 / (1 + exp (−·)), its definition).

   The three frames: the kernel's two are the generated frame certificates; the reference's is its run with the result
   dropped.  The idealization rewrote nothing, so the preserved-meaning claim is trivial.  The value claim: the kernel's
   run ends with the reshape of the whole-array function G (Proof/KernelArray.lean over Proof/KernelBody.lean), the
   reference's with its composed term (Proof/RefRun.lean), and the two are equal entry by entry (Proof/Bridge.lean). -/
import proofs.«179594_j15358803050800_2_alg».proof.Defs
import proofs.«179594_j15358803050800_2_alg».proof.Proof.Gen.Kernel
import proofs.«179594_j15358803050800_2_alg».proof.Proof.Gen.Kernel.Skeleton
import proofs.«179594_j15358803050800_2_alg».proof.Proof.Gen.Kernel.Launch
import proofs.«179594_j15358803050800_2_alg».proof.Proof.Gen.Kernel.Points
import proofs.«179594_j15358803050800_2_alg».proof.Proof.Gen.Kernel.Frame
import proofs.«179594_j15358803050800_2_alg».proof.Proof.Gen.KernelIdeal
import proofs.«179594_j15358803050800_2_alg».proof.Proof.Gen.KernelIdeal.Skeleton
import proofs.«179594_j15358803050800_2_alg».proof.Proof.Gen.KernelIdeal.Launch
import proofs.«179594_j15358803050800_2_alg».proof.Proof.Gen.KernelIdeal.Points
import proofs.«179594_j15358803050800_2_alg».proof.Proof.Gen.KernelIdeal.Frame
import proofs.«179594_j15358803050800_2_alg».proof.Proof.Gen.ReferenceIdeal
import proofs.«179594_j15358803050800_2_alg».proof.Proof.Gen.Pre_finite_inputs
import proofs.«179594_j15358803050800_2_alg».proof.Proof.KernelArray
import proofs.«179594_j15358803050800_2_alg».proof.Proof.RefRun
import proofs.«179594_j15358803050800_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- From memories that agree on the arguments the kernel's program ends with the reshape of G of the arguments and
    the reference with its composed term of them: one array (`Bridge.results_eq`). -/
theorem algebraic : Cert.algebraic_KernelIdeal_ReferenceIdeal := by
  intro m ρ m' ρ' _ hagree
  refine ⟨_, Cert.KernelIdeal.Arr.run Cert.KernelIdeal.Read.G
    (fun xr a1 a2 a3 a4 t x0 hx b ch q =>
      Cert.KernelIdeal.Read.block_of_G xr a1 a2 a3 a4 (Cert.KernelIdeal.Arr.row t) x0 hx b ch q) m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2.1, (hagree c).2.2.2.2]
  exact (Bridge.results_eq _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
